-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x4096 : Shape := ⟨3, ![8, 3, 4096]⟩
abbrev S_ : Shape := ⟨0, ![]⟩

class Facts : Prop where
  bcast_S_S8x3x4096 : S_.BroadcastsInDim S8x3x4096 (![] : Fin 0 → Fin S8x3x4096.rank)
  reducesTo_S8x3x4096_S_d0_1_2 : S8x3x4096.ReducesTo [0, 1, 2] S_
  h_S_ : 0 < S_.numel

variable [Facts]

def fn {F : FTy → Type} [FloatOps F] (main_arg0 : FVec F S8x3x4096 .f32) (main_arg1 : FVec F S8x3x4096 .f32) : IVec S_ 1 :=
  let main_v0 : FVec F S8x3x4096 .f32 := Host.absf main_arg0
  let main_cst : FVec F S_ .f32 := constant S_ .f32 0x7F800000#32
  let main_v1 : FVec F S8x3x4096 .f32 := broadcastInDim S8x3x4096 ![] bcast_S_S8x3x4096 main_cst
  let main_v2 : IVec S8x3x4096 1 := cmpf .olt main_v0 main_v1
  let main_c : IVec S_ 1 := constantI S_ 1 1#1
  let main_v3 : IVec S_ 1 := (fun x v => Host.reduce IntOp.andi x v reducesTo_S8x3x4096_S_d0_1_2 h_S_) main_v2 main_c
  let main_v4 : FVec F S8x3x4096 .f32 := Host.absf main_arg1
  let main_cst_0 : FVec F S_ .f32 := constant S_ .f32 0x7F800000#32
  let main_v5 : FVec F S8x3x4096 .f32 := broadcastInDim S8x3x4096 ![] bcast_S_S8x3x4096 main_cst_0
  let main_v6 : IVec S8x3x4096 1 := cmpf .olt main_v4 main_v5
  let main_c_1 : IVec S_ 1 := constantI S_ 1 1#1
  let main_v7 : IVec S_ 1 := (fun x v => Host.reduce IntOp.andi x v reducesTo_S8x3x4096_S_d0_1_2 h_S_) main_v6 main_c_1
  let main_v8 : IVec S_ 1 := andi main_v3 main_v7
  main_v8
-- ==== Kernel.lean ====
abbrev S8x3x4096 : Shape := ⟨3, ![8, 3, 4096]⟩
abbrev S8x4096x3 : Shape := ⟨3, ![8, 4096, 3]⟩
abbrev S8x1x4096 : Shape := ⟨3, ![8, 1, 4096]⟩
abbrev S1x1024x3 : Shape := ⟨3, ![1, 1024, 3]⟩
abbrev S1x3x1024 : Shape := ⟨3, ![1, 3, 1024]⟩
abbrev S1x1x4096 : Shape := ⟨3, ![1, 1, 4096]⟩
abbrev S1024x3 : Shape := ⟨2, ![1024, 3]⟩
abbrev S3x1024 : Shape := ⟨2, ![3, 1024]⟩
abbrev S1x4096 : Shape := ⟨2, ![1, 4096]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x4096x3, .f32⟩
  | .hbm, ⟨3, _⟩ => ⟨S8x1x4096, .f32⟩
  | .hbm, ⟨4, _⟩ => ⟨S8x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg1 : BitVec 32 := BitVec.ofNat 32 (i 1).val
  let c1024_i32 : BitVec 32 := 1024#32
  let v36 : BitVec 32 := Scalar.muli arg1 c1024_i32
  v36
def k0_mult2 (i : grid0.Coords) : BitVec 32 :=
  let arg2 : BitVec 32 := BitVec.ofNat 32 (i 2).val
  let c1024_i32_9 : BitVec 32 := 1024#32
  let v38 : BitVec 32 := Scalar.muli arg2 c1024_i32_9
  v38
def k0_off1 (i : grid0.Coords) : Fin 3 → Nat :=
  let c0_10 : Index := 0#32
  let c0_11 : Index := 0#32
  let arg1 : BitVec 32 := BitVec.ofNat 32 (i 1).val
  let c1024_i32 : BitVec 32 := 1024#32
  let v36 : BitVec 32 := Scalar.muli arg1 c1024_i32
  let v37 : BitVec 32 := v36
  let v40 : Index := Scalar.indexCast v37
  ![0, 0, v40.toNat]
def k0_off2 (i : grid0.Coords) : Fin 3 → Nat :=
  let c0_14 : Index := 0#32
  let c0_15 : Index := 0#32
  let arg2 : BitVec 32 := BitVec.ofNat 32 (i 2).val
  let c1024_i32_9 : BitVec 32 := 1024#32
  let v38 : BitVec 32 := Scalar.muli arg2 c1024_i32_9
  let v39 : BitVec 32 := v38
  let v48 : Index := Scalar.indexCast v39
  ![0, 0, v48.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x3x4096_S8x4096x3_0_2_1 : S8x3x4096.Transposes [0, 2, 1] S8x4096x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  transposes_S1024x1_p1_0_S1x1024 : S1024x1.Transposes [1, 0] S1x1024
  reduces_S1024x1024_S1024_2 : S1024x1024.Reduces [0] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  reducesTo_S8x1x4096_S_d0_1_2 : S8x1x4096.ReducesTo [0, 1, 2] S_
  h_S_ : 0 < S_.numel
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x1x1024.size a ≤ S1x1x4096.size a
  k0_off2_inb : ∀ i : grid0.Coords, ∀ a, (k0_off2 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_v0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x3x4096 : Shape := ⟨3, ![8, 3, 4096]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x4096x3, .f32⟩
  | .hbm, ⟨3, _⟩ => ⟨S8x4096x3, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  transposes_S8x3x4096_S8x4096x3_0_2_1 : S8x3x4096.Transposes [0, 2, 1] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KBodyStep.lean ====
/-
  What one grid point does to the two running-minimum rows, as pure functions of the point's tiles, for any float
  instance.

  Each output block is a row of 4096 entries. A point at grid coordinates (b, i, j) replaces the 1024 entries of the
  second row from 1024·i on by their entrywise minimum with the tile's row minima, and the 1024 entries of the first
  row from 1024·j on by their entrywise minimum with the tile's column minima; every other entry stays. At the points
  with i = j = 0 both rows are first filled with +inf.
-/
import proofs.«118990_j25039659336370_2_alg».proof.Proof.Gen.Kernel.Skeleton
import Idealize.ShloMosaic.Lib.WritesUnit
import Idealize.ShloMosaic.Lib.Pipeline.Value

noncomputable section

namespace Cert.Kernel.Body

open Idealize.ShloMosaic Cert.Kernel Cert.Kernel.Gen

variable {F : FTy → Type} [FloatOps F]

/-- A row of 4096 entries with the 1024 entries from offset `off` on replaced by `w`. -/
def put (off : Fin 3 → ℕ) (inb : ∀ a, off a + S1x1x1024.size a ≤ S1x1x4096.size a)
    (w : (Rect.unit (s := S1x1x4096) off S1x1x1024.size inb).shape.Idx → Elt F .f32)
    (old : S1x1x4096.Idx → Elt F .f32) : S1x1x4096.Idx → Elt F .f32 :=
  fun y => if h : ∀ a, off a ≤ (y a).val ∧ (y a).val < off a + S1x1x1024.size a then
      w (Rect.unitLocal (s := S1x1x4096) (off := off) (size := S1x1x1024.size) y h)
    else old y

/-- One store of 1024 entries at offset `off` into a buffer reading `X` leaves it reading `put off w X`. -/
theorem read_put {sig' : RefSig} {κ : Kind} {sp : Space} (v : View sig' κ sp S1x1x4096 .f32) (f : v.ty.Contents (Elt F))
    (off : Fin 3 → ℕ) (inb : ∀ a, off a + S1x1x1024.size a ≤ S1x1x4096.size a)
    (w : (Rect.unit (s := S1x1x4096) off S1x1x1024.size inb).shape.Idx → Elt F .f32) (L : List (View.Piece (Elt F) S1x1x4096 .f32)) :
    v.read (Elt F) (v.writes (Elt F) f ((⟨Rect.unit off S1x1x1024.size inb, w⟩ : View.Piece (Elt F) S1x1x4096 .f32) :: L))
      = put off inb w (v.read (Elt F) (v.writes (Elt F) f L)) := by
  funext y
  rw [View.read_writes_cons_unit v f inb w L y rfl]
  rfl

/-- One store of a whole block leaves the buffer reading the stored block, whatever it held. -/
theorem read_whole {sig' : RefSig} {κ : Kind} {sp : Space} {S : Shape} {e : EltTy} {Val : EltTy → Type} [∀ e, Nonempty (Val e)]
    (v : View sig' κ sp S e) (f : v.ty.Contents Val)
    {off : Fin S.rank → ℕ} (h : off = fun _ => 0) (inb : ∀ a, off a + S.size a ≤ S.size a)
    (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- The first row after a point with tiles `x0`, `x1`, from the row `old` before it: the entries from the point's
    target offset on are minimized with the tile's column minima. -/
def stepA (i : grid0.Coords) (x0 : Vec F S1x1024x3 .f32) (x1 : Vec F S1x3x1024 .f32) (old : S1x1x4096.Idx → Elt F .f32) :
    S1x1x4096.Idx → Elt F .f32 :=
  put (k0_off2 i) (k0_off2_inb i)
    (k0_pay2 (k0_pay7 x0 x1) (View.ld old (Rect.unit (s := S1x1x4096) (k0_off2 i) S1x1x1024.size (k0_off2_inb i)))) old

/-- The second row after the point: the entries from the point's source offset on are minimized with the tile's row
    minima. -/
def stepB (i : grid0.Coords) (x0 : Vec F S1x1024x3 .f32) (x1 : Vec F S1x3x1024 .f32) (old : S1x1x4096.Idx → Elt F .f32) :
    S1x1x4096.Idx → Elt F .f32 :=
  put (k0_off1 i) (k0_off1_inb i)
    (k0_pay1 (k0_pay6 x0 x1) (View.ld old (Rect.unit (s := S1x1x4096) (k0_off1 i) S1x1x1024.size (k0_off1_inb i)))) old

end Cert.Kernel.Body

end
-- ==== Proof.KBodyRun.lean ====
/-
  The kernel body as a Hoare triple on whole staging buffers, in its two control cases, for any float instance.

  The body loads the source tile and the target tile whole. At a point whose second and third grid coordinates are
  both zero it first overwrites both output rows with +inf (reading each once before, a value it never uses), so the
  rows it was handed do not matter there; at every other point it starts from the rows it was handed. Then it
  minimizes 1024 entries of each row in place: the second row's with the tile's row minima, the first row's with
  the tile's column minima. The inputs are handed back as they were.
-/
import proofs.«118990_j25039659336370_2_alg».proof.Proof.KBodyStep
import proofs.«118990_j25039659336370_2_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinates: the second and the third are both zero. -/
abbrev initCond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the 8 × 4 × 4 grid in row-major order it holds exactly at the points divisible by 16: the first point of
    each batch. -/
theorem initCond_iff : ∀ t : Fin cfg0.N, initCond (grid0.coords t) ↔ t.val % 16 = 0 :=
  (by decide +kernel : ∀ t : Fin grid0.N, initCond (grid0.coords t) ↔ t.val % 16 = 0)

theorem zero3 : (![0, 0, 0] : Fin 3 → ℕ) = fun _ => 0 := by
  funext a; match a with | ⟨0, _⟩ => rfl | ⟨1, _⟩ => rfl | ⟨2, _⟩ => rfl

set_option maxHeartbeats 1000000 in
/-- At a point that does not reset: from rows `xa`, `xb` the body leaves `stepA`, `stepB` of them. -/
theorem run_keep (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x4096 .f32) (harg5 : arg5.IsWhole) (arg6 : Memref sig .tc .vmem S1x1x4096 .f32) (harg6 : arg6.IsWhole) (hc0 : ¬initCond i)
    (x0 : Vec F S1x1024x3 .f32) (x1 : Vec F S1x3x1024 .f32) (xa xb : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xa ∗ owns (c : Thread nD τ) arg6 fullShare xb
            ∗ (iprop(owns (c : Thread nD τ) arg3 fullShare x0 ∗ owns (c : Thread nD τ) arg4 fullShare x1 ∗ owns (c : Thread nD τ) arg5 fullShare (stepA i x0 x1 xa) ∗ owns (c : Thread nD τ) arg6 fullShare (stepB i x0 x1 xb)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_put]
      sl_unfold_run_names
      simp only [View.writes_nil, View.readAt_eq_ld, harg3.read_unread, harg4.read_unread, harg5.read_unread,
        View.ld_unit_zero (S := S1x1024x3) zero3, View.ld_unit_zero (S := S1x3x1024) zero3]
      rfl
    · iexists _; isplitr; swap; · iexact H3
      ipureintro
      rw [read_put]
      sl_unfold_run_names
      simp only [View.writes_nil, View.readAt_eq_ld, harg3.read_unread, harg4.read_unread, harg6.read_unread,
        View.ld_unit_zero (S := S1x1024x3) zero3, View.ld_unit_zero (S := S1x3x1024) zero3]
      rfl

set_option maxHeartbeats 1000000 in
/-- At a point that resets: whatever rows it is handed, the body leaves `stepA`, `stepB` of the +inf rows. -/
theorem run_reset (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x4096 .f32) (harg5 : arg5.IsWhole) (arg6 : Memref sig .tc .vmem S1x1x4096 .f32) (harg6 : arg6.IsWhole) (hc0 : initCond i)
    (x0 : Vec F S1x1024x3 .f32) (x1 : Vec F S1x3x1024 .f32) (xa xb : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xa ∗ owns (c : Thread nD τ) arg6 fullShare xb
            ∗ (iprop(owns (c : Thread nD τ) arg3 fullShare x0 ∗ owns (c : Thread nD τ) arg4 fullShare x1 ∗ owns (c : Thread nD τ) arg5 fullShare (stepA i x0 x1 (k0_pay3 (F := F))) ∗ owns (c : Thread nD τ) arg6 fullShare (stepB i x0 x1 (k0_pay4 (F := F)))) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_put]
      sl_unfold_run_names
      simp only [View.readCov, View.readAt_eq_ld, read_whole (S := S1x1x4096) (Val := Elt F) _ _ zero3, harg3.read_unread, harg4.read_unread,
        View.ld_unit_zero (S := S1x1024x3) zero3, View.ld_unit_zero (S := S1x3x1024) zero3]
      rfl
    · iexists _; isplitr; swap; · iexact H3
      ipureintro
      rw [read_put]
      sl_unfold_run_names
      simp only [View.readCov, View.readAt_eq_ld, read_whole (S := S1x1x4096) (Val := Elt F) _ _ zero3, harg3.read_unread, harg4.read_unread,
        View.ld_unit_zero (S := S1x1024x3) zero3, View.ld_unit_zero (S := S1x3x1024) zero3]
      rfl

end Cert.Kernel.Body

end
-- ==== Proof.KBodyFrame.lean ====
/-
  The frame of the program: the rows the two output buffers hold after every grid point, the pipeline's proof data
  over them, the body's obligation at every point, and the run of the whole program.

  The grid has 128 points, 16 per batch. Both output blocks depend on the batch alone, so their staging buffers are
  carried from point to point within a batch and written back after the batch's last point (the points ≡ 15 mod 16).
  At a batch's first point (≡ 0 mod 16) the body resets the rows; at any other point the buffers hold what the
  point before left, and the body updates them in place.
-/
import proofs.«118990_j25039659336370_2_alg».proof.Proof.KBodyRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## The rows after each point -/

/-- The two rows after the body at position `n`: at a batch's first point the step from the +inf rows, at any
    other point the step from the rows after position `n - 1`. -/
def rowsAt (c : Dev nD) : (n : ℕ) → n < cfg0.N → (S1x1x4096.Idx → Elt F .f32) × (S1x1x4096.Idx → Elt F .f32)
  | 0, hn => (stepA (grid0.coords ⟨0, hn⟩) (iblk m c 0 ⟨0, hn⟩) (iblk m c 1 ⟨0, hn⟩) (k0_pay3 (F := F)),
      stepB (grid0.coords ⟨0, hn⟩) (iblk m c 0 ⟨0, hn⟩) (iblk m c 1 ⟨0, hn⟩) (k0_pay4 (F := F)))
  | n + 1, hn =>
    if (n + 1) % 16 = 0 then
      (stepA (grid0.coords ⟨n + 1, hn⟩) (iblk m c 0 ⟨n + 1, hn⟩) (iblk m c 1 ⟨n + 1, hn⟩) (k0_pay3 (F := F)),
        stepB (grid0.coords ⟨n + 1, hn⟩) (iblk m c 0 ⟨n + 1, hn⟩) (iblk m c 1 ⟨n + 1, hn⟩) (k0_pay4 (F := F)))
    else
      (stepA (grid0.coords ⟨n + 1, hn⟩) (iblk m c 0 ⟨n + 1, hn⟩) (iblk m c 1 ⟨n + 1, hn⟩) (rowsAt c n (Nat.lt_of_succ_lt hn)).1,
        stepB (grid0.coords ⟨n + 1, hn⟩) (iblk m c 0 ⟨n + 1, hn⟩) (iblk m c 1 ⟨n + 1, hn⟩) (rowsAt c n (Nat.lt_of_succ_lt hn)).2)

/-- At a batch's first point: the step from the +inf rows. -/
theorem rowsAt_reset (c : Dev nD) (t : Fin cfg0.N) (h0 : t.val % 16 = 0) :
    rowsAt m c t.val t.isLt = (stepA (grid0.coords t) (iblk m c 0 t) (iblk m c 1 t) (k0_pay3 (F := F)),
      stepB (grid0.coords t) (iblk m c 0 t) (iblk m c 1 t) (k0_pay4 (F := F))) := by
  obtain ⟨n, hn⟩ := t
  cases n with
  | zero => exact rfl
  | succ n => exact (if_pos h0).trans rfl

/-- At any other point: the step from the rows after the point before. -/
theorem rowsAt_keep (c : Dev nD) (t : Fin cfg0.N) (h0 : ¬t.val % 16 = 0) :
    rowsAt m c t.val t.isLt = (stepA (grid0.coords t) (iblk m c 0 t) (iblk m c 1 t) (rowsAt m c (t.val - 1) (Nat.lt_of_le_of_lt (Nat.sub_le _ _) t.isLt)).1,
      stepB (grid0.coords t) (iblk m c 0 t) (iblk m c 1 t) (rowsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The pipeline's proof data -/

/-- The proof data on core `c`: the arrays as the region finds them; after the body at point `t` each input's
    buffer at its block, the outputs' at the rows after `t`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (rowsAt m c t.val t.isLt).1
    | ⟨3, _⟩ => (rowsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (rowsAt m c t.val t.isLt).1 := by dsimp only [dats]
theorem after3 (c : Dev nD) (t : Fin cfg0.N) : (dats m 0 c).after 3 t = (rowsAt m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from a batch's first point an output's staging buffer holds the row the point before left: the point is
    not the first, and the buffer was not written back in between. -/
theorem before2_keep (c : Dev nD) (t : Fin cfg0.N) (h0 : ¬t.val % 16 = 0) (d) :
    (dats m 0 c).before 2 t d = (rowsAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_keep (c : Dev nD) (t : Fin cfg0.N) (h0 : ¬t.val % 16 = 0) (d) :
    (dats m 0 c).before 3 t d = (rowsAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; at a batch's first point the reset run applies to
    whatever the outputs' buffers hold, at any other point the keeping run applies to what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 = 0
  · rw [rowsAt_reset m c t h0]
    iintro ⟨HΦ, Ho, ⟨%d0, H0⟩, ⟨%d1, H1⟩, ⟨%d2, H2⟩, ⟨%d3, H3⟩⟩
    iapply ((run_reset c (grid0.coords t) _ _ _ _ _ _ _ _ ((initCond_iff t).mpr h0) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [rowsAt_keep m c t h0]
    simp only [before2_keep m c t h0, before3_keep m c t h0]
    iintro ⟨HΦ, Ho, ⟨%d0, H0⟩, ⟨%d1, H1⟩, ⟨%d2, H2⟩, ⟨%d3, H3⟩⟩
    iapply ((run_keep c (grid0.coords t) _ _ _ _ _ _ _ _ (fun h => h0 ((initCond_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final
    state each array of the pipeline holds what the write-backs of the proof data leave in it, and every other
    unscoped buffer what the host operations after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyStep.lean ====
/-
  What one grid point does to the two running-minimum rows, as pure functions of the point's tiles, for any float
  instance.

  Each output block is a row of 4096 entries. A point at grid coordinates (b, i, j) replaces the 1024 entries of the
  second row from 1024·i on by their entrywise minimum with the tile's row minima, and the 1024 entries of the first
  row from 1024·j on by their entrywise minimum with the tile's column minima; every other entry stays. At the points
  with i = j = 0 both rows are first filled with +inf.
-/
import proofs.«118990_j25039659336370_2_alg».proof.Proof.Gen.KernelIdeal.Skeleton
import Idealize.ShloMosaic.Lib.WritesUnit
import Idealize.ShloMosaic.Lib.Pipeline.Value

noncomputable section

namespace Cert.KernelIdeal.Body

open Idealize.ShloMosaic Cert.KernelIdeal Cert.KernelIdeal.Gen

variable {F : FTy → Type} [FloatOps F]

/-- A row of 4096 entries with the 1024 entries from offset `off` on replaced by `w`. -/
def put (off : Fin 3 → ℕ) (inb : ∀ a, off a + S1x1x1024.size a ≤ S1x1x4096.size a)
    (w : (Rect.unit (s := S1x1x4096) off S1x1x1024.size inb).shape.Idx → Elt F .f32)
    (old : S1x1x4096.Idx → Elt F .f32) : S1x1x4096.Idx → Elt F .f32 :=
  fun y => if h : ∀ a, off a ≤ (y a).val ∧ (y a).val < off a + S1x1x1024.size a then
      w (Rect.unitLocal (s := S1x1x4096) (off := off) (size := S1x1x1024.size) y h)
    else old y

/-- One store of 1024 entries at offset `off` into a buffer reading `X` leaves it reading `put off w X`. -/
theorem read_put {sig' : RefSig} {κ : Kind} {sp : Space} (v : View sig' κ sp S1x1x4096 .f32) (f : v.ty.Contents (Elt F))
    (off : Fin 3 → ℕ) (inb : ∀ a, off a + S1x1x1024.size a ≤ S1x1x4096.size a)
    (w : (Rect.unit (s := S1x1x4096) off S1x1x1024.size inb).shape.Idx → Elt F .f32) (L : List (View.Piece (Elt F) S1x1x4096 .f32)) :
    v.read (Elt F) (v.writes (Elt F) f ((⟨Rect.unit off S1x1x1024.size inb, w⟩ : View.Piece (Elt F) S1x1x4096 .f32) :: L))
      = put off inb w (v.read (Elt F) (v.writes (Elt F) f L)) := by
  funext y
  rw [View.read_writes_cons_unit v f inb w L y rfl]
  rfl

/-- One store of a whole block leaves the buffer reading the stored block, whatever it held. -/
theorem read_whole {sig' : RefSig} {κ : Kind} {sp : Space} {S : Shape} {e : EltTy} {Val : EltTy → Type} [∀ e, Nonempty (Val e)]
    (v : View sig' κ sp S e) (f : v.ty.Contents Val)
    {off : Fin S.rank → ℕ} (h : off = fun _ => 0) (inb : ∀ a, off a + S.size a ≤ S.size a)
    (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- The first row after a point with tiles `x0`, `x1`, from the row `old` before it: the entries from the point's
    target offset on are minimized with the tile's column minima. -/
def stepA (i : grid0.Coords) (x0 : Vec F S1x1024x3 .f32) (x1 : Vec F S1x3x1024 .f32) (old : S1x1x4096.Idx → Elt F .f32) :
    S1x1x4096.Idx → Elt F .f32 :=
  put (k0_off2 i) (k0_off2_inb i)
    (k0_pay2 (k0_pay7 x0 x1) (View.ld old (Rect.unit (s := S1x1x4096) (k0_off2 i) S1x1x1024.size (k0_off2_inb i)))) old

/-- The second row after the point: the entries from the point's source offset on are minimized with the tile's row
    minima. -/
def stepB (i : grid0.Coords) (x0 : Vec F S1x1024x3 .f32) (x1 : Vec F S1x3x1024 .f32) (old : S1x1x4096.Idx → Elt F .f32) :
    S1x1x4096.Idx → Elt F .f32 :=
  put (k0_off1 i) (k0_off1_inb i)
    (k0_pay1 (k0_pay6 x0 x1) (View.ld old (Rect.unit (s := S1x1x4096) (k0_off1 i) S1x1x1024.size (k0_off1_inb i)))) old

end Cert.KernelIdeal.Body

end
-- ==== Proof.BodyRun.lean ====
/-
  The kernel body as a Hoare triple on whole staging buffers, in its two control cases, for any float instance.

  The body loads the source tile and the target tile whole. At a point whose second and third grid coordinates are
  both zero it first overwrites both output rows with +inf (reading each once before, a value it never uses), so the
  rows it was handed do not matter there; at every other point it starts from the rows it was handed. Then it
  minimizes 1024 entries of each row in place: the second row's with the tile's row minima, the first row's with
  the tile's column minima. The inputs are handed back as they were.
-/
import proofs.«118990_j25039659336370_2_alg».proof.Proof.BodyStep
import proofs.«118990_j25039659336370_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinates: the second and the third are both zero. -/
abbrev initCond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the 8 × 4 × 4 grid in row-major order it holds exactly at the points divisible by 16: the first point of
    each batch. -/
theorem initCond_iff : ∀ t : Fin cfg0.N, initCond (grid0.coords t) ↔ t.val % 16 = 0 :=
  (by decide +kernel : ∀ t : Fin grid0.N, initCond (grid0.coords t) ↔ t.val % 16 = 0)

theorem zero3 : (![0, 0, 0] : Fin 3 → ℕ) = fun _ => 0 := by
  funext a; match a with | ⟨0, _⟩ => rfl | ⟨1, _⟩ => rfl | ⟨2, _⟩ => rfl

set_option maxHeartbeats 1000000 in
/-- At a point that does not reset: from rows `xa`, `xb` the body leaves `stepA`, `stepB` of them. -/
theorem run_keep (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x4096 .f32) (harg5 : arg5.IsWhole) (arg6 : Memref sig .tc .vmem S1x1x4096 .f32) (harg6 : arg6.IsWhole) (hc0 : ¬initCond i)
    (x0 : Vec F S1x1024x3 .f32) (x1 : Vec F S1x3x1024 .f32) (xa xb : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xa ∗ owns (c : Thread nD τ) arg6 fullShare xb
            ∗ (iprop(owns (c : Thread nD τ) arg3 fullShare x0 ∗ owns (c : Thread nD τ) arg4 fullShare x1 ∗ owns (c : Thread nD τ) arg5 fullShare (stepA i x0 x1 xa) ∗ owns (c : Thread nD τ) arg6 fullShare (stepB i x0 x1 xb)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_put]
      sl_unfold_run_names
      simp only [View.writes_nil, View.readAt_eq_ld, harg3.read_unread, harg4.read_unread, harg5.read_unread,
        View.ld_unit_zero (S := S1x1024x3) zero3, View.ld_unit_zero (S := S1x3x1024) zero3]
      rfl
    · iexists _; isplitr; swap; · iexact H3
      ipureintro
      rw [read_put]
      sl_unfold_run_names
      simp only [View.writes_nil, View.readAt_eq_ld, harg3.read_unread, harg4.read_unread, harg6.read_unread,
        View.ld_unit_zero (S := S1x1024x3) zero3, View.ld_unit_zero (S := S1x3x1024) zero3]
      rfl

set_option maxHeartbeats 1000000 in
/-- At a point that resets: whatever rows it is handed, the body leaves `stepA`, `stepB` of the +inf rows. -/
theorem run_reset (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x4096 .f32) (harg5 : arg5.IsWhole) (arg6 : Memref sig .tc .vmem S1x1x4096 .f32) (harg6 : arg6.IsWhole) (hc0 : initCond i)
    (x0 : Vec F S1x1024x3 .f32) (x1 : Vec F S1x3x1024 .f32) (xa xb : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xa ∗ owns (c : Thread nD τ) arg6 fullShare xb
            ∗ (iprop(owns (c : Thread nD τ) arg3 fullShare x0 ∗ owns (c : Thread nD τ) arg4 fullShare x1 ∗ owns (c : Thread nD τ) arg5 fullShare (stepA i x0 x1 (k0_pay3 (F := F))) ∗ owns (c : Thread nD τ) arg6 fullShare (stepB i x0 x1 (k0_pay4 (F := F)))) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_put]
      sl_unfold_run_names
      simp only [View.readCov, View.readAt_eq_ld, read_whole (S := S1x1x4096) (Val := Elt F) _ _ zero3, harg3.read_unread, harg4.read_unread,
        View.ld_unit_zero (S := S1x1024x3) zero3, View.ld_unit_zero (S := S1x3x1024) zero3]
      rfl
    · iexists _; isplitr; swap; · iexact H3
      ipureintro
      rw [read_put]
      sl_unfold_run_names
      simp only [View.readCov, View.readAt_eq_ld, read_whole (S := S1x1x4096) (Val := Elt F) _ _ zero3, harg3.read_unread, harg4.read_unread,
        View.ld_unit_zero (S := S1x1024x3) zero3, View.ld_unit_zero (S := S1x3x1024) zero3]
      rfl

end Cert.KernelIdeal.Body

end
-- ==== Proof.BodyFrame.lean ====
/-
  The frame of the program: the rows the two output buffers hold after every grid point, the pipeline's proof data
  over them, the body's obligation at every point, and the run of the whole program.

  The grid has 128 points, 16 per batch. Both output blocks depend on the batch alone, so their staging buffers are
  carried from point to point within a batch and written back after the batch's last point (the points ≡ 15 mod 16).
  At a batch's first point (≡ 0 mod 16) the body resets the rows; at any other point the buffers hold what the
  point before left, and the body updates them in place.
-/
import proofs.«118990_j25039659336370_2_alg».proof.Proof.BodyRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## The rows after each point -/

/-- The two rows after the body at position `n`: at a batch's first point the step from the +inf rows, at any
    other point the step from the rows after position `n - 1`. -/
def rowsAt (c : Dev nD) : (n : ℕ) → n < cfg0.N → (S1x1x4096.Idx → Elt F .f32) × (S1x1x4096.Idx → Elt F .f32)
  | 0, hn => (stepA (grid0.coords ⟨0, hn⟩) (iblk m c 0 ⟨0, hn⟩) (iblk m c 1 ⟨0, hn⟩) (k0_pay3 (F := F)),
      stepB (grid0.coords ⟨0, hn⟩) (iblk m c 0 ⟨0, hn⟩) (iblk m c 1 ⟨0, hn⟩) (k0_pay4 (F := F)))
  | n + 1, hn =>
    if (n + 1) % 16 = 0 then
      (stepA (grid0.coords ⟨n + 1, hn⟩) (iblk m c 0 ⟨n + 1, hn⟩) (iblk m c 1 ⟨n + 1, hn⟩) (k0_pay3 (F := F)),
        stepB (grid0.coords ⟨n + 1, hn⟩) (iblk m c 0 ⟨n + 1, hn⟩) (iblk m c 1 ⟨n + 1, hn⟩) (k0_pay4 (F := F)))
    else
      (stepA (grid0.coords ⟨n + 1, hn⟩) (iblk m c 0 ⟨n + 1, hn⟩) (iblk m c 1 ⟨n + 1, hn⟩) (rowsAt c n (Nat.lt_of_succ_lt hn)).1,
        stepB (grid0.coords ⟨n + 1, hn⟩) (iblk m c 0 ⟨n + 1, hn⟩) (iblk m c 1 ⟨n + 1, hn⟩) (rowsAt c n (Nat.lt_of_succ_lt hn)).2)

/-- At a batch's first point: the step from the +inf rows. -/
theorem rowsAt_reset (c : Dev nD) (t : Fin cfg0.N) (h0 : t.val % 16 = 0) :
    rowsAt m c t.val t.isLt = (stepA (grid0.coords t) (iblk m c 0 t) (iblk m c 1 t) (k0_pay3 (F := F)),
      stepB (grid0.coords t) (iblk m c 0 t) (iblk m c 1 t) (k0_pay4 (F := F))) := by
  obtain ⟨n, hn⟩ := t
  cases n with
  | zero => exact rfl
  | succ n => exact (if_pos h0).trans rfl

/-- At any other point: the step from the rows after the point before. -/
theorem rowsAt_keep (c : Dev nD) (t : Fin cfg0.N) (h0 : ¬t.val % 16 = 0) :
    rowsAt m c t.val t.isLt = (stepA (grid0.coords t) (iblk m c 0 t) (iblk m c 1 t) (rowsAt m c (t.val - 1) (Nat.lt_of_le_of_lt (Nat.sub_le _ _) t.isLt)).1,
      stepB (grid0.coords t) (iblk m c 0 t) (iblk m c 1 t) (rowsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The pipeline's proof data -/

/-- The proof data on core `c`: the arrays as the region finds them; after the body at point `t` each input's
    buffer at its block, the outputs' at the rows after `t`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (rowsAt m c t.val t.isLt).1
    | ⟨3, _⟩ => (rowsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (rowsAt m c t.val t.isLt).1 := by dsimp only [dats]
theorem after3 (c : Dev nD) (t : Fin cfg0.N) : (dats m 0 c).after 3 t = (rowsAt m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from a batch's first point an output's staging buffer holds the row the point before left: the point is
    not the first, and the buffer was not written back in between. -/
theorem before2_keep (c : Dev nD) (t : Fin cfg0.N) (h0 : ¬t.val % 16 = 0) (d) :
    (dats m 0 c).before 2 t d = (rowsAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_keep (c : Dev nD) (t : Fin cfg0.N) (h0 : ¬t.val % 16 = 0) (d) :
    (dats m 0 c).before 3 t d = (rowsAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; at a batch's first point the reset run applies to
    whatever the outputs' buffers hold, at any other point the keeping run applies to what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 = 0
  · rw [rowsAt_reset m c t h0]
    iintro ⟨HΦ, Ho, ⟨%d0, H0⟩, ⟨%d1, H1⟩, ⟨%d2, H2⟩, ⟨%d3, H3⟩⟩
    iapply ((run_reset c (grid0.coords t) _ _ _ _ _ _ _ _ ((initCond_iff t).mpr h0) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [rowsAt_keep m c t h0]
    simp only [before2_keep m c t h0, before3_keep m c t h0]
    iintro ⟨HΦ, Ho, ⟨%d0, H0⟩, ⟨%d1, H1⟩, ⟨%d2, H2⟩, ⟨%d3, H3⟩⟩
    iapply ((run_keep c (grid0.coords t) _ _ _ _ _ _ _ _ (fun h => h0 ((initCond_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final
    state each array of the pipeline holds what the write-backs of the proof data leave in it, and every other
    unscoped buffer what the host operations after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernBlocks.lean ====
/-
  The two input windows read at an index, for any float instance.

  Grid point `t` (0 … 127, row-major over 8 × 4 × 4) has batch `t / 16`, source block `t / 4 % 4` and target block
  `t % 4`. The first window stages the transposed source cloud `[8, 4096, 3]` in blocks `[1, 1024, 3]` at block
  index (batch, source block, 0); the second stages the target cloud `[8, 3, 4096]` in blocks `[1, 3, 1024]` at
  (batch, 0, target block). The transposed source cloud at (b, s, d) is the source cloud at (b, d, s). The body
  updates the second output row from offset 1024 · (source block) and the first from 1024 · (target block).
-/
import proofs.«118990_j25039659336370_2_alg».proof.Proof.Gen.KernelIdeal.Skeleton
import proofs.«118990_j25039659336370_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block index of each input window at each grid point, decided once over the grid. -/
theorem idx_facts : ∀ t : Fin cfg0.N,
    (win0_0.index t 0 = t.val / 16 ∧ win0_0.index t 1 = t.val / 4 % 4 ∧ win0_0.index t 2 = 0)
    ∧ (win0_1.index t 0 = t.val / 16 ∧ win0_1.index t 1 = 0 ∧ win0_1.index t 2 = t.val % 4) :=
  (by decide +kernel : ∀ t : Fin grid0.N,
    (win0_0.index t 0 = t.val / 16 ∧ win0_0.index t 1 = t.val / 4 % 4 ∧ win0_0.index t 2 = 0)
    ∧ (win0_1.index t 0 = t.val / 16 ∧ win0_1.index t 1 = 0 ∧ win0_1.index t 2 = t.val % 4))

/-- The block index of each output window at each grid point: the batch alone. -/
theorem out_idx_facts : ∀ t : Fin cfg0.N,
    (win0_2.index t 0 = t.val / 16 ∧ win0_2.index t 1 = 0 ∧ win0_2.index t 2 = 0)
    ∧ (win0_3.index t 0 = t.val / 16 ∧ win0_3.index t 1 = 0 ∧ win0_3.index t 2 = 0) :=
  (by decide +kernel : ∀ t : Fin grid0.N,
    (win0_2.index t 0 = t.val / 16 ∧ win0_2.index t 1 = 0 ∧ win0_2.index t 2 = 0)
    ∧ (win0_3.index t 0 = t.val / 16 ∧ win0_3.index t 1 = 0 ∧ win0_3.index t 2 = 0))

/-- The offsets of the two in-place updates at each grid point, decided once over the grid. -/
theorem off_facts : ∀ t : Fin cfg0.N,
    k0_off1 (grid0.coords t) = ![0, 0, 1024 * (t.val / 4 % 4)] ∧ k0_off2 (grid0.coords t) = ![0, 0, 1024 * (t.val % 4)] :=
  (by decide +kernel : ∀ t : Fin grid0.N,
    k0_off1 (grid0.coords t) = ![0, 0, 1024 * (t.val / 4 % 4)] ∧ k0_off2 (grid0.coords t) = ![0, 0, 1024 * (t.val % 4)])

/-- The first window's block at point `t`, entry by entry: the transposed source cloud at the batch's rows of the
    point's source block. -/
theorem iblk0_apply (c : Dev nD) (t : Fin cfg0.N) (x : S1x1024x3.Idx) (k : S8x4096x3.Idx)
    (hk0 : (k 0).val = t.val / 16 + (x 0).val) (hk1 : (k 1).val = 1024 * (t.val / 4 % 4) + (x 1).val) (hk2 : (k 2).val = (x 2).val) :
    (iblk m c 0 t : Vec F S1x1024x3 .f32) x = (V m c main_v0 : S8x4096x3.Idx → Elt F .f32) k := by
  have hi := (idx_facts t).1
  unfold iblk
  rw [View.read_apply]
  show V m c main_v0 _ = V m c main_v0 _
  congr 1
  funext a
  apply Fin.ext
  match a with
  | ⟨0, _⟩ => show win0_0.index t 0 * 1 + 1 * (x 0).val = (k 0).val; rw [hi.1, hk0]; omega
  | ⟨1, _⟩ => show win0_0.index t 1 * 1024 + 1 * (x 1).val = (k 1).val; rw [hi.2.1, hk1]; omega
  | ⟨2, _⟩ => show win0_0.index t 2 * 3 + 1 * (x 2).val = (k 2).val; rw [hi.2.2, hk2]; omega

/-- The second window's block at point `t`, entry by entry: the target cloud at the batch's columns of the point's
    target block. -/
theorem iblk1_apply (c : Dev nD) (t : Fin cfg0.N) (x : S1x3x1024.Idx) (k : S8x3x4096.Idx)
    (hk0 : (k 0).val = t.val / 16 + (x 0).val) (hk1 : (k 1).val = (x 1).val) (hk2 : (k 2).val = 1024 * (t.val % 4) + (x 2).val) :
    (iblk m c 1 t : Vec F S1x3x1024 .f32) x = (m ((c : Thread nD τ).loc main_arg1) : S8x3x4096.Idx → Elt F .f32) k := by
  have hi := (idx_facts t).2
  unfold iblk
  rw [View.read_apply]
  show V m c main_arg1 _ = m ((c : Thread nD τ).loc main_arg1) _
  rw [V_main_arg1 m c]
  congr 1
  funext a
  apply Fin.ext
  match a with
  | ⟨0, _⟩ => show win0_1.index t 0 * 1 + 1 * (x 0).val = (k 0).val; rw [hi.1, hk0]; omega
  | ⟨1, _⟩ => show win0_1.index t 1 * 3 + 1 * (x 1).val = (k 1).val; rw [hi.2.1, hk1]; omega
  | ⟨2, _⟩ => show win0_1.index t 2 * 1024 + 1 * (x 2).val = (k 2).val; rw [hi.2.2, hk2]; omega

/-- The transposed source cloud, as the region finds it, at (b, s, d) is the source cloud at (b, d, s). -/
theorem V_v0_apply (c : Dev nD) (b : Fin 8) (s : Fin 4096) (d : Fin 3) :
    (V m c main_v0 : S8x4096x3.Idx → Elt F .f32) (ix3 b s d)
      = (m ((c : Thread nD τ).loc main_arg0) : S8x3x4096.Idx → Elt F .f32) (ix3 b d s) := by
  have e : (V m c main_v0 : S8x4096x3.Idx → Elt F .f32)
      = transpose S8x4096x3 [0, 2, 1] (m ((c : Thread nD τ).loc main_arg0)) transposes_S8x3x4096_S8x4096x3_0_2_1 := by
    show StableHlo.after hostOps0 (fun b => m (c, b)) (Proc.devRef .tc main_v0) = _
    after_results
  rw [e]
  exact transpose_apply [0, 2, 1] _ transposes_S8x3x4096_S8x4096x3_0_2_1 (ix3 b s d) (ix3 b d s) (fun a => match a with
    | ⟨0, _⟩ => rfl
    | ⟨1, _⟩ => rfl
    | ⟨2, _⟩ => rfl)

end Cert.KernelIdeal.Blocks

end
-- ==== Proof.TileSpec.lean ====
/-
  One grid point's arithmetic, free of any program: a tile of 1024 source points `[1, 1024, 3]` (point, then
  coordinate) against a tile of 1024 target points `[1, 3, 1024]` (coordinate, then point).
-/
import Idealize.ShloMosaic.PureOps.Ideal
import Idealize.ShloMosaic.Lib.ValueIdx

noncomputable section

namespace Cert.Chamfer

open Idealize.ShloMosaic Idealize.ShloMosaic.ValueIdx

/-- A tile of source points: one batch, 1024 points, 3 coordinates. -/
abbrev SrcTile : Type := (⟨3, ![1, 1024, 3]⟩ : Shape).Idx → EReal
/-- A tile of target points: one batch, 3 coordinates, 1024 points. -/
abbrev TgtTile : Type := (⟨3, ![1, 3, 1024]⟩ : Shape).Idx → EReal

/-- The difference of coordinate `d` between source point `p` and target point `q` of the two tiles. -/
def tileDiff (u : SrcTile) (v : TgtTile) (d : Fin 3) (p q : Fin 1024) : EReal :=
  u (ix3 0 p d) - v (ix3 0 d q)

/-- The squared distance between source point `p` and target point `q` of the two tiles: the three squared
    coordinate differences, added left to right. -/
def tileSq (u : SrcTile) (v : TgtTile) (p q : Fin 1024) : EReal :=
  tileDiff u v 0 p q * tileDiff u v 0 p q
    + tileDiff u v 1 p q * tileDiff u v 1 p q
    + tileDiff u v 2 p q * tileDiff u v 2 p q

end Cert.Chamfer

end
-- ==== Proof.TileLayout.lean ====
/-
  Layout operations and a one-axis minimum, read at an index given by coordinates: the forms a matrix of pairwise
  distances needs that the library's index vocabulary does not already carry. Nothing here mentions a program.

  * a column `[a, 1]` broadcast along the rows of `[a, b]` reads the column's entry of the same row;
  * a vector `[a]` cast to a column `[a, 1]` reads the vector's entry of the same row;
  * a fold of `min` from `⊤` over a finite set of extended reals is the set's infimum;
  * a minimum reduction of a matrix along its second axis is, at row `p`, the infimum of row `p`; along its first
    axis, at column `q`, the infimum of column `q`.
-/
import Idealize.ShloMosaic.Lib.ValueLayout
import Idealize.ShloMosaic.PureOps.Ideal.Laws

noncomputable section

namespace Cert.Chamfer.Tile

open Idealize.ShloMosaic Idealize.ShloMosaic.ValueIdx

/-! ## Two layout operations at an index -/

section Layout
variable {α : Type}

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`, whatever the unit coordinate. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## A fold of `min` from `⊤` is an infimum -/

/-- Folding `min` from `⊤` over a finite family of extended reals gives the family's infimum. -/
theorem fold_min_top_eq_inf {ι : Type} (s : Finset ι) (f : ι → EReal) :
    s.fold min (⊤ : EReal) f = s.inf f := by
  classical
  induction s using Finset.induction_on with
  | empty => rw [Finset.fold_empty, Finset.inf_empty]
  | insert a s ha ih => rw [Finset.fold_insert ha, Finset.inf_insert, ih]

/-! ## The two words a distance tile starts from -/

/-- The word `0x7F800000` read as an extended real is `⊤`. -/
theorem ofBits_inf_f32 : Ideal.ofBits .f32 0x7F800000#32 = (⊤ : EReal) := by
  simp [Ideal.ofBits, Ideal.ieee]

/-! ## A one-axis minimum of a matrix -/

/-- A minimum reduction over ONE axis, read at the extended reals: the fold of `min` from the accumulator's value over
    that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `p` with column coordinate `k` inserted is the matrix index `(p, k)`. -/
theorem lift_axis1 {n0 n1 : ℕ} (h : (⟨2, ![n0, n1]⟩ : Shape).Reduces [1] ⟨1, ![n0]⟩) (p : Fin n0) (k : Fin n1) :
    h.lift (ix1 p) k = ix2 p k := by
  funext c
  match c with
  | ⟨0, _⟩ => rfl
  | ⟨1, _⟩ => rfl

/-- Column `q` with row coordinate `k` inserted is the matrix index `(k, q)`. -/
theorem lift_axis0 {n0 n1 : ℕ} (h : (⟨2, ![n0, n1]⟩ : Shape).Reduces [0] ⟨1, ![n1]⟩) (q : Fin n1) (k : Fin n0) :
    h.lift (ix1 q) k = ix2 k q := by
  funext c
  match c with
  | ⟨0, _⟩ => rfl
  | ⟨1, _⟩ => rfl

/-- A minimum reduction of a matrix along its second axis, from `+∞`: at `p`, the infimum of row `p`. -/
theorem rowMin_apply {n0 n1 : ℕ} (X : FVec Ideal ⟨2, ![n0, n1]⟩ .f32)
    (h : (⟨2, ![n0, n1]⟩ : Shape).Reduces [1] ⟨1, ![n0]⟩) (hφ : FKind.Formats .f32)
    (hacc : (0x7F800000#32 : BitVec 32) = FKind.minimumf.neutral .f32 hφ) (p : Fin n0) :
    multiReduction .minimumf [1] ⟨1, ![n0]⟩ X 0x7F800000#32 h hφ hacc (ix1 p)
      = Finset.univ.inf fun q : Fin n1 => X (ix2 p q) := by
  refine (multiReduction_minimumf_single X _ h hφ hacc (ix1 p)).trans ?_
  refine (congrArg (fun z => Finset.fold min z (X ∘ h.lift (ix1 p)) Finset.univ) ofBits_inf_f32).trans ?_
  refine (fold_min_top_eq_inf _ _).trans ?_
  exact congrArg (Finset.univ.inf) (funext fun k => congrArg X (lift_axis1 h p k))

/-- A minimum reduction of a matrix along its first axis, from `+∞`: at `q`, the infimum of column `q`. -/
theorem colMin_apply {n0 n1 : ℕ} (X : FVec Ideal ⟨2, ![n0, n1]⟩ .f32)
    (h : (⟨2, ![n0, n1]⟩ : Shape).Reduces [0] ⟨1, ![n1]⟩) (hφ : FKind.Formats .f32)
    (hacc : (0x7F800000#32 : BitVec 32) = FKind.minimumf.neutral .f32 hφ) (q : Fin n1) :
    multiReduction .minimumf [0] ⟨1, ![n1]⟩ X 0x7F800000#32 h hφ hacc (ix1 q)
      = Finset.univ.inf fun p : Fin n0 => X (ix2 p q) := by
  refine (multiReduction_minimumf_single X _ h hφ hacc (ix1 q)).trans ?_
  refine (congrArg (fun z => Finset.fold min z (X ∘ h.lift (ix1 q)) Finset.univ) ofBits_inf_f32).trans ?_
  refine (fold_min_top_eq_inf _ _).trans ?_
  exact congrArg (Finset.univ.inf) (funext fun k => congrArg X (lift_axis0 h q k))

end Cert.Chamfer.Tile

end
-- ==== Proof.TilePay5.lean ====
/-
  The matrix of squared distances between a tile of source points and a tile of target points, read entry by entry:
  entry `(p, q)` of the kernel body's distance matrix is the squared distance between source point `p` and target
  point `q`, the three squared coordinate differences added left to right onto zero.
-/
import proofs.«118990_j25039659336370_2_alg».proof.Proof.Gen.KernelIdeal.Skeleton
import proofs.«118990_j25039659336370_2_alg».proof.Proof.TileSpec
import proofs.«118990_j25039659336370_2_alg».proof.Proof.TileLayout

noncomputable section

namespace Cert.Chamfer.Tile

open Idealize.ShloMosaic Idealize.ShloMosaic.ValueIdx Cert.KernelIdeal Cert.KernelIdeal.Gen

/-- Coordinate `d` of the source tile as a column, spread along the rows of the distance matrix: entry `(p, q)` is
    coordinate `d` of source point `p`. -/
theorem srcCol_apply (v0 : Vec Ideal S1x1024x3 .f32) (o : ℕ) (d : Fin 3) (hd : d.val = o)
    (hc : S1x1024x3.ShapeCasts S1024x3) (hs : S1024x3.Slices ![0, o] S1024x1)
    (hb : S1024x1.Broadcasts S1024x1024) (p q : Fin 1024) :
    broadcastTo S1024x1024 (extractStridedSlice S1024x1 ![0, o] (shapeCast S1024x3 v0 hc) hs) hb (ix2 p q)
      = v0 (ix3 0 p d) := by
  refine (broadcastTo_a1_ab_apply _ hb p q).trans ?_
  refine (slice2_axis1_apply o _ hs p (0 : Fin 1) d (by rw [hd]; rfl)).trans ?_
  exact shapeCast_1ab_ab_apply v0 hc p d

/-- Coordinate `d` of the target tile as a row, spread along the columns of the distance matrix: entry `(p, q)` is
    coordinate `d` of target point `q`. -/
theorem tgtRow_apply (v2 : Vec Ideal S1x3x1024 .f32) (o : ℕ) (d : Fin 3) (hd : d.val = o)
    (hc : S1x3x1024.ShapeCasts S3x1024) (hs : S3x1024.Slices ![o, 0] S1x1024)
    (hb : S1x1024.Broadcasts S1024x1024) (p q : Fin 1024) :
    broadcastTo S1024x1024 (extractStridedSlice S1x1024 ![o, 0] (shapeCast S3x1024 v2 hc) hs) hb (ix2 p q)
      = v2 (ix3 0 d q) := by
  refine (broadcastTo_1b_ab_apply _ hb p q).trans ?_
  refine (slice2_axis0_apply o _ hs (0 : Fin 1) q d (by rw [hd]; rfl)).trans ?_
  exact shapeCast_1ab_ab_apply v2 hc d q

/-- Entry `(p, q)` of the distance matrix is the squared distance between source point `p` and target point `q`. -/
theorem pay5_apply (v0 : Vec Ideal S1x1024x3 .f32) (v2 : Vec Ideal S1x3x1024 .f32) (p q : Fin 1024) :
    k0_pay5 (F := Ideal) v0 v2 (ix2 p q) = Cert.Chamfer.tileSq v0 v2 p q := by
  unfold k0_pay5 Cert.Chamfer.tileSq Cert.Chamfer.tileDiff
  simp only [addf_apply, mulf_apply, subf_apply, broadcast_apply]
  rw [srcCol_apply v0 0 0 rfl, srcCol_apply v0 1 1 rfl, srcCol_apply v0 2 2 rfl,
    tgtRow_apply v2 0 0 rfl, tgtRow_apply v2 1 1 rfl, tgtRow_apply v2 2 2 rfl]
  show Ideal.ofBits .f32 0x00000000#32 + _ + _ + _ = _
  rw [Ideal.ofBits_zero_f32, zero_add]

end Cert.Chamfer.Tile

end
-- ==== Proof.TilePay.lean ====
/-
  What one grid point's arithmetic stores, read entry by entry at the extended reals:

  * the row minima of the distance matrix — for each source point of the tile, the infimum over the tile's target
    points of the squared distance;
  * the column minima — for each target point, the infimum over the tile's source points;
  * the running minima: an entry of a stored slice replaced by the smaller of itself and such a minimum;
  * the initial contents of the two running-minimum buffers: `⊤` everywhere.
-/
import proofs.«118990_j25039659336370_2_alg».proof.Proof.TilePay5

noncomputable section

namespace Cert.Chamfer.Tile

open Idealize.ShloMosaic Idealize.ShloMosaic.ValueIdx Cert.KernelIdeal Cert.KernelIdeal.Gen

/-- The row minima, laid out as a `[1, 1024]` row: entry `(0, p)` is the infimum over the target points `q` of the
    squared distance from source point `p`. -/
theorem pay6_apply (v0 : Vec Ideal S1x1024x3 .f32) (v2 : Vec Ideal S1x3x1024 .f32) (p : Fin 1024) :
    k0_pay6 (F := Ideal) v0 v2 (ix2 0 p) = Finset.univ.inf fun q : Fin 1024 => Cert.Chamfer.tileSq v0 v2 p q := by
  unfold k0_pay6
  -- the transpose of a column reads the column; the column is the vector of row minima
  refine (transpose_ix2_apply _ transposes_S1024x1_p1_0_S1x1024 (0 : Fin 1) p).trans ?_
  refine (shapeCast_a_a1_apply _ shapeCasts_S1024_S1024x1 p (0 : Fin 1)).trans ?_
  refine (rowMin_apply (k0_pay5 (F := Ideal) v0 v2) reduces_S1024x1024_S1024 (.inl rfl) rfl p).trans ?_
  exact congrArg Finset.univ.inf (funext fun q => pay5_apply v0 v2 p q)

/-- The column minima, laid out as a `[1, 1024]` row: entry `(0, q)` is the infimum over the source points `p` of the
    squared distance to target point `q`. -/
theorem pay7_apply (v0 : Vec Ideal S1x1024x3 .f32) (v2 : Vec Ideal S1x3x1024 .f32) (q : Fin 1024) :
    k0_pay7 (F := Ideal) v0 v2 (ix2 0 q) = Finset.univ.inf fun p : Fin 1024 => Cert.Chamfer.tileSq v0 v2 p q := by
  unfold k0_pay7
  refine (shapeCast_a_1a_apply _ shapeCasts_S1024_S1x1024 (0 : Fin 1) q).trans ?_
  refine (colMin_apply (k0_pay5 (F := Ideal) v0 v2) reduces_S1024x1024_S1024_2 (.inl rfl) rfl q).trans ?_
  exact congrArg Finset.univ.inf (funext fun p => pay5_apply v0 v2 p q)

/-- A stored slice updated by a row of minima: entry `r` becomes the smaller of the stored entry and the row's. -/
theorem pay1_apply (v33 : FVec Ideal S1x1024 .f32) (v41 : Vec Ideal S1x1x1024 .f32) (r : Fin 1024) :
    k0_pay1 (F := Ideal) v33 v41 (ix3 0 0 r) = min (v41 (ix3 0 0 r)) (v33 (ix2 0 r)) := by
  unfold k0_pay1
  refine (shapeCast_ab_1ab_apply _ shapeCasts_S1x1024_S1x1x1024 (0 : Fin 1) (0 : Fin 1) r).trans ?_
  show min (shapeCast S1x1024 v41 shapeCasts_S1x1x1024_S1x1024 (ix2 0 r)) (v33 (ix2 0 r)) = _
  exact congrArg (fun z => min z (v33 (ix2 0 r))) (shapeCast_1ab_ab_apply v41 shapeCasts_S1x1x1024_S1x1024 (0 : Fin 1) r)

/-- The same for the other buffer. -/
theorem pay2_apply (v35 : FVec Ideal S1x1024 .f32) (v49 : Vec Ideal S1x1x1024 .f32) (r : Fin 1024) :
    k0_pay2 (F := Ideal) v35 v49 (ix3 0 0 r) = min (v49 (ix3 0 0 r)) (v35 (ix2 0 r)) := by
  unfold k0_pay2
  refine (shapeCast_ab_1ab_apply _ shapeCasts_S1x1024_S1x1x1024 (0 : Fin 1) (0 : Fin 1) r).trans ?_
  show min (shapeCast S1x1024 v49 shapeCasts_S1x1x1024_S1x1024 (ix2 0 r)) (v35 (ix2 0 r)) = _
  exact congrArg (fun z => min z (v35 (ix2 0 r))) (shapeCast_1ab_ab_apply v49 shapeCasts_S1x1x1024_S1x1024 (0 : Fin 1) r)

/-- The first buffer's initial contents: `⊤` at every entry. -/
theorem pay3_apply (y : S1x1x4096.Idx) : k0_pay3 (F := Ideal) y = (⊤ : EReal) := by
  unfold k0_pay3
  show Ideal.ofBits .f32 0x7F800000#32 = ⊤
  exact ofBits_inf_f32

/-- The second buffer's initial contents: `⊤` at every entry. -/
theorem pay4_apply (y : S1x1x4096.Idx) : k0_pay4 (F := Ideal) y = (⊤ : EReal) := by
  unfold k0_pay4
  show Ideal.ofBits .f32 0x7F800000#32 = ⊤
  exact ofBits_inf_f32

end Cert.Chamfer.Tile

end
-- ==== Proof.RowsStep.lean ====
/-
  One grid point's effect on the two running-minimum rows, read entry by entry.

  A row of 4096 entries with a stretch of 1024 entries replaced reads the replacement inside the stretch and the old
  row outside it. At the extended reals the replacement is the entrywise minimum of the old stretch with the tile's
  column minima (first row) or row minima (second row), so an entry inside the stretch becomes the smaller of itself
  and the infimum of the squared distances to the tile's points, and an entry outside keeps its value.
-/
import proofs.«118990_j25039659336370_2_alg».proof.Proof.BodyStep
import proofs.«118990_j25039659336370_2_alg».proof.Proof.TilePay

noncomputable section

namespace Cert.KernelIdeal.Body

open Idealize.ShloMosaic Idealize.ShloMosaic.ValueIdx Cert.KernelIdeal Cert.KernelIdeal.Gen

/-! ## A row with a stretch replaced, for any float instance -/

section Put
variable {F : FTy → Type} [FloatOps F]

/-- Inside the replaced stretch — entry `q = o + r` with `r` below 1024 — the row reads the replacement at `r`. -/
theorem put_in (off : Fin 3 → ℕ) (inb : ∀ a, off a + S1x1x1024.size a ≤ S1x1x4096.size a)
    (w : (Rect.unit (s := S1x1x4096) off S1x1x1024.size inb).shape.Idx → Elt F .f32) (old : S1x1x4096.Idx → Elt F .f32)
    (o : ℕ) (hoff : off = ![0, 0, o]) (q : Fin 4096) (r : Fin 1024) (hq : q.val = o + r.val) :
    put off inb w old (ix3 0 0 q) = w (ix3 0 0 r) := by
  subst hoff
  have h : ∀ a : Fin 3, (![0, 0, o] : Fin 3 → ℕ) a ≤ ((ix3 (0 : Fin 1) (0 : Fin 1) q : S1x1x4096.Idx) a).val
      ∧ ((ix3 (0 : Fin 1) (0 : Fin 1) q : S1x1x4096.Idx) a).val < (![0, 0, o] : Fin 3 → ℕ) a + S1x1x1024.size a := by
    intro a
    match a with
    | ⟨0, _⟩ => exact ⟨Nat.le_refl 0, Nat.one_pos⟩
    | ⟨1, _⟩ => exact ⟨Nat.le_refl 0, Nat.one_pos⟩
    | ⟨2, _⟩ =>
      show o ≤ q.val ∧ q.val < o + 1024
      have := r.isLt
      omega
  unfold put
  rw [dif_pos h]
  exact congrArg w (funext fun a => Fin.ext (by
    match a with
    | ⟨0, _⟩ => rfl
    | ⟨1, _⟩ => rfl
    | ⟨2, _⟩ =>
      show q.val - o = r.val
      omega))

/-- Outside the replaced stretch the row reads what it held. -/
theorem put_out (off : Fin 3 → ℕ) (inb : ∀ a, off a + S1x1x1024.size a ≤ S1x1x4096.size a)
    (w : (Rect.unit (s := S1x1x4096) off S1x1x1024.size inb).shape.Idx → Elt F .f32) (old : S1x1x4096.Idx → Elt F .f32)
    (o : ℕ) (hoff : off = ![0, 0, o]) (q : Fin 4096) (hq : q.val < o ∨ o + 1024 ≤ q.val) :
    put off inb w old (ix3 0 0 q) = old (ix3 0 0 q) := by
  subst hoff
  unfold put
  rw [dif_neg]
  intro h
  have h2 : o ≤ q.val ∧ q.val < o + 1024 := h ⟨2, Nat.lt_succ_self 2⟩
  omega

/-- The stretch of 1024 entries from `o` on, read out of a row: its entry `r` is the row's entry `o + r`. -/
theorem ld_stretch (off : Fin 3 → ℕ) (inb : ∀ a, off a + S1x1x1024.size a ≤ S1x1x4096.size a)
    (old : S1x1x4096.Idx → Elt F .f32) (o : ℕ) (hoff : off = ![0, 0, o]) (q : Fin 4096) (r : Fin 1024)
    (hq : q.val = o + r.val) :
    View.ld old (Rect.unit (s := S1x1x4096) off S1x1x1024.size inb) (ix3 0 0 r) = old (ix3 0 0 q) := by
  subst hoff
  exact congrArg old (funext fun a => Fin.ext (by
    match a with
    | ⟨0, _⟩ => rfl
    | ⟨1, _⟩ => rfl
    | ⟨2, _⟩ =>
      show o + 1 * r.val = q.val
      omega))

end Put

/-! ## The two rows after a grid point, at the extended reals -/

/-- First row, inside the point's target stretch: entry `o + r` becomes the smaller of itself and the infimum over the
    tile's source points of the squared distance to target point `r`. -/
theorem stepA_in (i : grid0.Coords) (o : ℕ) (hoff : k0_off2 i = ![0, 0, o]) (x0 : Vec Ideal S1x1024x3 .f32)
    (x1 : Vec Ideal S1x3x1024 .f32) (old : S1x1x4096.Idx → EReal) (q : Fin 4096) (r : Fin 1024)
    (hq : q.val = o + r.val) :
    stepA (F := Ideal) i x0 x1 old (ix3 0 0 q)
      = min (old (ix3 0 0 q)) (Finset.univ.inf fun p : Fin 1024 => Cert.Chamfer.tileSq x0 x1 p r) := by
  unfold stepA
  refine (put_in (F := Ideal) _ _ _ _ o hoff q r hq).trans ?_
  refine (Cert.Chamfer.Tile.pay2_apply _ _ r).trans ?_
  exact congrArg₂ min (ld_stretch (F := Ideal) (k0_off2 i) (k0_off2_inb i) old o hoff q r hq)
    (Cert.Chamfer.Tile.pay7_apply x0 x1 r)

/-- First row, outside the point's target stretch: unchanged. -/
theorem stepA_out (i : grid0.Coords) (o : ℕ) (hoff : k0_off2 i = ![0, 0, o]) (x0 : Vec Ideal S1x1024x3 .f32)
    (x1 : Vec Ideal S1x3x1024 .f32) (old : S1x1x4096.Idx → EReal) (q : Fin 4096)
    (hq : q.val < o ∨ o + 1024 ≤ q.val) :
    stepA (F := Ideal) i x0 x1 old (ix3 0 0 q) = old (ix3 0 0 q) := by
  unfold stepA
  exact put_out (F := Ideal) _ _ _ _ o hoff q hq

/-- Second row, inside the point's source stretch: entry `o + r` becomes the smaller of itself and the infimum over the
    tile's target points of the squared distance from source point `r`. -/
theorem stepB_in (i : grid0.Coords) (o : ℕ) (hoff : k0_off1 i = ![0, 0, o]) (x0 : Vec Ideal S1x1024x3 .f32)
    (x1 : Vec Ideal S1x3x1024 .f32) (old : S1x1x4096.Idx → EReal) (s : Fin 4096) (r : Fin 1024)
    (hs : s.val = o + r.val) :
    stepB (F := Ideal) i x0 x1 old (ix3 0 0 s)
      = min (old (ix3 0 0 s)) (Finset.univ.inf fun q : Fin 1024 => Cert.Chamfer.tileSq x0 x1 r q) := by
  unfold stepB
  refine (put_in (F := Ideal) _ _ _ _ o hoff s r hs).trans ?_
  refine (Cert.Chamfer.Tile.pay1_apply _ _ r).trans ?_
  exact congrArg₂ min (ld_stretch (F := Ideal) (k0_off1 i) (k0_off1_inb i) old o hoff s r hs)
    (Cert.Chamfer.Tile.pay6_apply x0 x1 r)

/-- Second row, outside the point's source stretch: unchanged. -/
theorem stepB_out (i : grid0.Coords) (o : ℕ) (hoff : k0_off1 i = ![0, 0, o]) (x0 : Vec Ideal S1x1024x3 .f32)
    (x1 : Vec Ideal S1x3x1024 .f32) (old : S1x1x4096.Idx → EReal) (s : Fin 4096)
    (hs : s.val < o ∨ o + 1024 ≤ s.val) :
    stepB (F := Ideal) i x0 x1 old (ix3 0 0 s) = old (ix3 0 0 s) := by
  unfold stepB
  exact put_out (F := Ideal) _ _ _ _ o hoff s hs

end Cert.KernelIdeal.Body

end
-- ==== Proof.Spec.lean ====
/-
  The mathematics of the certificate, free of any program: the Chamfer distance of two batches of point clouds,
  over the extended reals.

  A cloud array is `[8, 3, 4096]`: batch, coordinate, point. For a batch `b`, a source point `s` and a target
  point `t`, the squared distance is the sum over the three coordinates of the squared difference. The first
  result row takes, for every target point, the least squared distance to any source point; the second, for every
  source point, the least squared distance to any target point. The scalar result is the mean of the first row
  plus the mean of the second: each a sum over the 8 · 4096 entries divided by 32768.
-/
import Idealize.ShloMosaic.PureOps.Ideal
import Idealize.ShloMosaic.Lib.ValueIdx

noncomputable section

namespace Cert.Chamfer

open Idealize.ShloMosaic Idealize.ShloMosaic.ValueIdx

/-- A batch of point clouds: batch, coordinate, point. -/
abbrev Cloud : Type := (⟨3, ![8, 3, 4096]⟩ : Shape).Idx → EReal

/-- The difference of coordinate `d` between source point `s` and target point `t` of batch `b`. -/
def coordDiff (x y : Cloud) (b : Fin 8) (d : Fin 3) (s t : Fin 4096) : EReal :=
  x (ix3 b d s) - y (ix3 b d t)

/-- The squared distance between source point `s` and target point `t` of batch `b`: the three squared
    coordinate differences, added left to right. -/
def sqDist (x y : Cloud) (b : Fin 8) (s t : Fin 4096) : EReal :=
  coordDiff x y b 0 s t * coordDiff x y b 0 s t
    + coordDiff x y b 1 s t * coordDiff x y b 1 s t
    + coordDiff x y b 2 s t * coordDiff x y b 2 s t

/-- For target point `t`: the least squared distance to a source point. -/
def nearestSrc (x y : Cloud) (b : Fin 8) (t : Fin 4096) : EReal :=
  Finset.univ.inf fun s : Fin 4096 => sqDist x y b s t

/-- For source point `s`: the least squared distance to a target point. -/
def nearestTgt (x y : Cloud) (b : Fin 8) (s : Fin 4096) : EReal :=
  Finset.univ.inf fun t : Fin 4096 => sqDist x y b s t

/-- The Chamfer distance: the mean over batches and target points of `nearestSrc`, plus the mean over batches and
    source points of `nearestTgt`; the divisor is the f32 word of 32768 = 8 · 4096, as both programs spell it. -/
def chamfer (x y : Cloud) : EReal :=
  Ideal.div (∑ b : Fin 8, ∑ t : Fin 4096, nearestSrc x y b t) (Ideal.ofBits .f32 0x47000000#32)
    + Ideal.div (∑ b : Fin 8, ∑ s : Fin 4096, nearestTgt x y b s) (Ideal.ofBits .f32 0x47000000#32)

end Cert.Chamfer

end
-- ==== Proof.PartialSpec.lean ====
/-
  The running minima of the sweep over tiles, free of any program.

  Within one batch the 4096 × 4096 table of squared distances is visited tile by tile, 1024 × 1024 at a time, the
  tile of source block `i` and target block `j` at step `4·i + j` (steps 0 … 15). After step `k` the first row
  holds, for each target point, the least squared distance over the source points of the tiles visited so far, and
  the second row, for each source point, the least over the target points of the tiles visited so far; an entry no
  visited tile reaches is +inf. After step 15 they are the full minima.
-/
import proofs.«118990_j25039659336370_2_alg».proof.Proof.Spec

noncomputable section

namespace Cert.Chamfer

open Idealize.ShloMosaic Idealize.ShloMosaic.ValueIdx

/-- The pair (source point `s`, target point `t`) lies in a tile visited by step `k`. -/
def visited (k : ℕ) (s t : Fin 4096) : Prop := 4 * (s.val / 1024) + t.val / 1024 ≤ k

instance (k : ℕ) (s t : Fin 4096) : Decidable (visited k s t) := by unfold visited; infer_instance

/-- After step `k`: for target point `t`, the least squared distance to a source point of a visited tile. -/
def partSrc (x y : Cloud) (b : Fin 8) (k : ℕ) (t : Fin 4096) : EReal :=
  (Finset.univ.filter fun s : Fin 4096 => visited k s t).inf fun s => sqDist x y b s t

/-- After step `k`: for source point `s`, the least squared distance to a target point of a visited tile. -/
def partTgt (x y : Cloud) (b : Fin 8) (k : ℕ) (s : Fin 4096) : EReal :=
  (Finset.univ.filter fun t : Fin 4096 => visited k s t).inf fun t => sqDist x y b s t

/-- Before step `k`: +inf before the first step, else the running minimum after the step before. -/
def prevSrc (x y : Cloud) (b : Fin 8) (k : ℕ) (t : Fin 4096) : EReal :=
  if k = 0 then ⊤ else partSrc x y b (k - 1) t

def prevTgt (x y : Cloud) (b : Fin 8) (k : ℕ) (s : Fin 4096) : EReal :=
  if k = 0 then ⊤ else partTgt x y b (k - 1) s

/-- Point `r` of block `blk` (of four blocks of 1024). -/
def blockPt (blk : ℕ) (hblk : blk < 4) (r : Fin 1024) : Fin 4096 := ⟨1024 * blk + r.val, by omega⟩

end Cert.Chamfer

end
-- ==== Proof.PartialMin.lean ====
/-
  The running minima of the sweep, step by step.

  The pairs visited by step `k` are those visited by step `k − 1` together with the pairs of the tile of step `k`
  itself, the pairs `(s, t)` with `4·(s / 1024) + t / 1024 = k`; so a running minimum after step `k` is the minimum
  of the one before and the infimum over the new pairs. Writing `k = 4·(k / 4) + k % 4` with `k % 4 < 4`: for a
  target point of block `k % 4` the new pairs are the source points of block `k / 4`, and for a target point of
  another block there are none; likewise for a source point of block `k / 4` the new pairs are the target points of
  block `k % 4`, and for a source point of another block there are none. A block of 1024 points is the image of
  `Fin 1024` under `blockPt`. By step 15 every pair is visited.
-/
import proofs.«118990_j25039659336370_2_alg».proof.Proof.PartialSpec

noncomputable section

namespace Cert.Chamfer

open Idealize.ShloMosaic

/-! ## Blocks of 1024 points -/

/-- Point `r` of block `i` lies in block `i`. -/
theorem blockPt_div (i : ℕ) (hi : i < 4) (r : Fin 1024) : (blockPt i hi r).val / 1024 = i := by
  show (1024 * i + r.val) / 1024 = i
  have := r.isLt
  omega

/-- A point of block `i` is the point of that block at its offset. -/
theorem eq_blockPt (s : Fin 4096) (i : ℕ) (hi : i < 4) (hs : s.val / 1024 = i) :
    s = blockPt i hi ⟨s.val % 1024, Nat.mod_lt _ (by norm_num)⟩ :=
  Fin.ext (by show s.val = 1024 * i + s.val % 1024; omega)

/-- An infimum over the points of block `i` is the infimum over the 1024 offsets. -/
theorem inf_block (g : Fin 4096 → EReal) (i : ℕ) (hi : i < 4) :
    (Finset.univ.filter fun s : Fin 4096 => s.val / 1024 = i).inf g
      = Finset.univ.inf fun p : Fin 1024 => g (blockPt i hi p) := by
  apply le_antisymm
  · exact Finset.le_inf fun p _ =>
      Finset.inf_le (Finset.mem_filter.2 ⟨Finset.mem_univ _, blockPt_div i hi p⟩)
  · refine Finset.le_inf fun s hs => ?_
    have e := eq_blockPt s i hi (Finset.mem_filter.1 hs).2
    exact (Finset.inf_le (f := fun p : Fin 1024 => g (blockPt i hi p))
      (Finset.mem_univ (⟨s.val % 1024, Nat.mod_lt _ (by norm_num)⟩ : Fin 1024))).trans
      (le_of_eq (congrArg g e.symm))

/-! ## One step splits off the new tile -/

/-- After step `k`, for target point `t`: the minimum of the value before and the infimum over the source points
    whose tile with `t` is the tile of step `k`. -/
theorem partSrc_split (x y : Cloud) (b : Fin 8) (k : ℕ) (t : Fin 4096) :
    partSrc x y b k t = min (prevSrc x y b k t)
      ((Finset.univ.filter fun s : Fin 4096 => 4 * (s.val / 1024) + t.val / 1024 = k).inf
        fun s => sqDist x y b s t) := by
  by_cases hk0 : k = 0
  · subst hk0
    unfold prevSrc
    rw [if_pos rfl, min_eq_right le_top]
    unfold partSrc
    refine congrArg (fun S => Finset.inf S fun s => sqDist x y b s t) ?_
    ext s
    simp only [Finset.mem_filter, Finset.mem_univ, true_and]
    unfold visited
    omega
  · unfold prevSrc
    rw [if_neg hk0]
    unfold partSrc
    rw [← Finset.inf_union]
    refine congrArg (fun S => Finset.inf S fun s => sqDist x y b s t) ?_
    ext s
    simp only [Finset.mem_union, Finset.mem_filter, Finset.mem_univ, true_and]
    unfold visited
    omega

/-- After step `k`, for source point `s`: the minimum of the value before and the infimum over the target points
    whose tile with `s` is the tile of step `k`. -/
theorem partTgt_split (x y : Cloud) (b : Fin 8) (k : ℕ) (s : Fin 4096) :
    partTgt x y b k s = min (prevTgt x y b k s)
      ((Finset.univ.filter fun t : Fin 4096 => 4 * (s.val / 1024) + t.val / 1024 = k).inf
        fun t => sqDist x y b s t) := by
  by_cases hk0 : k = 0
  · subst hk0
    unfold prevTgt
    rw [if_pos rfl, min_eq_right le_top]
    unfold partTgt
    refine congrArg (fun S => Finset.inf S fun t => sqDist x y b s t) ?_
    ext t
    simp only [Finset.mem_filter, Finset.mem_univ, true_and]
    unfold visited
    omega
  · unfold prevTgt
    rw [if_neg hk0]
    unfold partTgt
    rw [← Finset.inf_union]
    refine congrArg (fun S => Finset.inf S fun t => sqDist x y b s t) ?_
    ext t
    simp only [Finset.mem_union, Finset.mem_filter, Finset.mem_univ, true_and]
    unfold visited
    omega

/-! ## The step, for a point inside and outside the tile's block -/

/-- A target point of block `k % 4` meets, at step `k`, the source points of block `k / 4`. -/
theorem partSrc_step_of_mem (x y : Cloud) (b : Fin 8) (k : ℕ) (hk : k < 16) (t : Fin 4096)
    (ht : t.val / 1024 = k % 4) :
    partSrc x y b k t = min (prevSrc x y b k t)
      (Finset.univ.inf fun p : Fin 1024 => sqDist x y b (blockPt (k / 4) (by omega) p) t) := by
  rw [partSrc_split, ← inf_block (fun s => sqDist x y b s t) (k / 4) (by omega)]
  refine congrArg (fun S => min (prevSrc x y b k t) (Finset.inf S fun s => sqDist x y b s t)) ?_
  ext s
  simp only [Finset.mem_filter, Finset.mem_univ, true_and]
  omega

theorem partSrc_step_in (x y : Cloud) (b : Fin 8) (k : ℕ) (hk : k < 16) (r : Fin 1024) :
    partSrc x y b k (blockPt (k % 4) (Nat.mod_lt _ (by norm_num)) r)
      = min (prevSrc x y b k (blockPt (k % 4) (Nat.mod_lt _ (by norm_num)) r))
            (Finset.univ.inf fun p : Fin 1024 =>
              sqDist x y b (blockPt (k / 4) (by omega) p) (blockPt (k % 4) (Nat.mod_lt _ (by norm_num)) r)) :=
  partSrc_step_of_mem x y b k hk _ (blockPt_div _ _ r)

/-- A target point outside block `k % 4` meets no source point at step `k`. -/
theorem partSrc_step_out (x y : Cloud) (b : Fin 8) (k : ℕ) (hk : k < 16) (t : Fin 4096)
    (ht : t.val / 1024 ≠ k % 4) :
    partSrc x y b k t = prevSrc x y b k t := by
  rw [partSrc_split]
  have hempty : (Finset.univ.filter fun s : Fin 4096 => 4 * (s.val / 1024) + t.val / 1024 = k) = ∅ :=
    Finset.filter_eq_empty_iff.2 fun s _ => by have := t.isLt; omega
  rw [hempty, Finset.inf_empty, min_eq_left le_top]

/-- A source point of block `k / 4` meets, at step `k`, the target points of block `k % 4`. -/
theorem partTgt_step_of_mem (x y : Cloud) (b : Fin 8) (k : ℕ) (hk : k < 16) (s : Fin 4096)
    (hs : s.val / 1024 = k / 4) :
    partTgt x y b k s = min (prevTgt x y b k s)
      (Finset.univ.inf fun q : Fin 1024 =>
        sqDist x y b s (blockPt (k % 4) (Nat.mod_lt _ (by norm_num)) q)) := by
  rw [partTgt_split, ← inf_block (fun t => sqDist x y b s t) (k % 4) (Nat.mod_lt _ (by norm_num))]
  refine congrArg (fun S => min (prevTgt x y b k s) (Finset.inf S fun t => sqDist x y b s t)) ?_
  ext t
  simp only [Finset.mem_filter, Finset.mem_univ, true_and]
  omega

theorem partTgt_step_in (x y : Cloud) (b : Fin 8) (k : ℕ) (hk : k < 16) (r : Fin 1024) :
    partTgt x y b k (blockPt (k / 4) (by omega) r)
      = min (prevTgt x y b k (blockPt (k / 4) (by omega) r))
            (Finset.univ.inf fun q : Fin 1024 =>
              sqDist x y b (blockPt (k / 4) (by omega) r) (blockPt (k % 4) (Nat.mod_lt _ (by norm_num)) q)) :=
  partTgt_step_of_mem x y b k hk _ (blockPt_div _ _ r)

/-- A source point outside block `k / 4` meets no target point at step `k`. -/
theorem partTgt_step_out (x y : Cloud) (b : Fin 8) (k : ℕ) (hk : k < 16) (s : Fin 4096)
    (hs : s.val / 1024 ≠ k / 4) :
    partTgt x y b k s = prevTgt x y b k s := by
  rw [partTgt_split]
  have hempty : (Finset.univ.filter fun t : Fin 4096 => 4 * (s.val / 1024) + t.val / 1024 = k) = ∅ :=
    Finset.filter_eq_empty_iff.2 fun t _ => by have := t.isLt; omega
  rw [hempty, Finset.inf_empty, min_eq_left le_top]

/-! ## After the last step -/

/-- By step 15 every pair is visited. -/
theorem visited_last (s t : Fin 4096) : visited 15 s t := by
  unfold visited
  have := s.isLt
  have := t.isLt
  omega

theorem partSrc_full (x y : Cloud) (b : Fin 8) (t : Fin 4096) : partSrc x y b 15 t = nearestSrc x y b t := by
  unfold partSrc nearestSrc
  rw [Finset.filter_true_of_mem fun s _ => visited_last s t]

theorem partTgt_full (x y : Cloud) (b : Fin 8) (s : Fin 4096) : partTgt x y b 15 s = nearestTgt x y b s := by
  unfold partTgt nearestTgt
  rw [Finset.filter_true_of_mem fun t _ => visited_last s t]

end Cert.Chamfer

end
-- ==== Proof.RowsValue.lean ====
/-
  The two rows after every grid point are the running minima of the sweep, at the ideal instance.

  Point `t` is step `t % 16` of batch `t / 16`: its source tile is block `t / 4 % 4` of the batch's source points, its
  target tile block `t % 4` of the batch's target points, so the tile's squared distances are the batch's squared
  distances at those points. One step minimizes the stretch of the first row over the step's target block with the
  tile's column minima and the stretch of the second row over the step's source block with the tile's row minima:
  exactly how the running minima of the sweep advance. By induction over the points each row is the running minimum
  after its step; after a batch's last step it is the full minimum.
-/
import proofs.«118990_j25039659336370_2_alg».proof.Proof.BodyFrame
import proofs.«118990_j25039659336370_2_alg».proof.Proof.KernBlocks
import proofs.«118990_j25039659336370_2_alg».proof.Proof.RowsStep
import proofs.«118990_j25039659336370_2_alg».proof.Proof.PartialMin

set_option maxRecDepth 16384

noncomputable section

namespace Cert.KernelIdeal.Body

open Idealize.ShloMosaic Idealize.ShloMosaic.TcCoe Idealize.SL.Sem Idealize.ShloMosaic.ValueIdx
open Cert.KernelIdeal Cert.KernelIdeal.Gen Cert.KernelIdeal.Blocks Cert.Chamfer

variable (m : (ℓ : Loc nD τ sig) → Buf (Elt Ideal) ℓ)

/-- The source and the target clouds on core `c`, as launched. -/
abbrev srcs (c : Dev nD) : Cloud := m ((c : Thread nD τ).loc main_arg0)
abbrev tgts (c : Dev nD) : Cloud := m ((c : Thread nD τ).loc main_arg1)

theorem lt128 (t : Fin cfg0.N) : t.val < 128 := lt_of_lt_of_eq t.isLt (show cfg0.N = 128 from N_0)

/-- The batch of grid point `t`. -/
def batchOf (t : Fin cfg0.N) : Fin 8 := ⟨t.val / 16, by have := lt128 t; omega⟩

/-- The point's source tile, entry by entry, is the source cloud at the batch's points of the step's source block. -/
theorem iblk0_at (c : Dev nD) (t : Fin cfg0.N) (p : Fin 1024) (d : Fin 3) :
    (iblk m c 0 t : Vec Ideal S1x1024x3 .f32) (ix3 0 p d)
      = srcs m c (ix3 (batchOf t) d (blockPt (t.val / 4 % 4) (Nat.mod_lt _ (by norm_num)) p)) :=
  (iblk0_apply m c t (ix3 0 p d) (ix3 (batchOf t) (blockPt (t.val / 4 % 4) (Nat.mod_lt _ (by norm_num)) p) d) rfl rfl rfl).trans
    (V_v0_apply m c _ _ _)

/-- The point's target tile, entry by entry, is the target cloud at the batch's points of the step's target block. -/
theorem iblk1_at (c : Dev nD) (t : Fin cfg0.N) (d : Fin 3) (r : Fin 1024) :
    (iblk m c 1 t : Vec Ideal S1x3x1024 .f32) (ix3 0 d r)
      = tgts m c (ix3 (batchOf t) d (blockPt (t.val % 4) (Nat.mod_lt _ (by norm_num)) r)) :=
  iblk1_apply m c t (ix3 0 d r) (ix3 (batchOf t) d (blockPt (t.val % 4) (Nat.mod_lt _ (by norm_num)) r)) rfl rfl rfl

/-- So the tile's squared distances are the batch's, at the points of the step's two blocks. -/
theorem tile_eq (c : Dev nD) (t : Fin cfg0.N) (p r : Fin 1024) :
    tileSq (iblk m c 0 t) (iblk m c 1 t) p r
      = sqDist (srcs m c) (tgts m c) (batchOf t) (blockPt (t.val / 4 % 4) (Nat.mod_lt _ (by norm_num)) p)
          (blockPt (t.val % 4) (Nat.mod_lt _ (by norm_num)) r) := by
  unfold tileSq tileDiff sqDist coordDiff
  rw [iblk0_at m c t p 0, iblk0_at m c t p 1, iblk0_at m c t p 2, iblk1_at m c t 0 r, iblk1_at m c t 1 r, iblk1_at m c t 2 r]

/-- One step on the first row: from the running minimum before the step to the running minimum after it. -/
theorem stepA_part (c : Dev nD) (t : Fin cfg0.N) (old : S1x1x4096.Idx → EReal)
    (hold : ∀ q : Fin 4096, old (ix3 0 0 q) = prevSrc (srcs m c) (tgts m c) (batchOf t) (t.val % 16) q) (q : Fin 4096) :
    stepA (F := Ideal) (grid0.coords t) (iblk m c 0 t) (iblk m c 1 t) old (ix3 0 0 q)
      = partSrc (srcs m c) (tgts m c) (batchOf t) (t.val % 16) q := by
  have hk : t.val % 16 < 16 := Nat.mod_lt _ (by norm_num)
  have hq4 : q.val < 4096 := q.isLt
  by_cases hq : q.val / 1024 = t.val % 16 % 4
  · have hq' : q.val = 1024 * (t.val % 4) + (⟨q.val % 1024, Nat.mod_lt _ (by norm_num)⟩ : Fin 1024).val := by
      show q.val = 1024 * (t.val % 4) + q.val % 1024
      omega
    rw [stepA_in (grid0.coords t) (1024 * (t.val % 4)) (off_facts t).2 _ _ old q ⟨q.val % 1024, Nat.mod_lt _ (by norm_num)⟩ hq',
      hold q, partSrc_step_of_mem _ _ _ _ hk q hq]
    congr 1
    refine Finset.inf_congr rfl fun p _ => ?_
    rw [tile_eq m c t p]
    congr 1
    · exact Fin.ext (by show 1024 * (t.val / 4 % 4) + p.val = 1024 * (t.val % 16 / 4) + p.val; omega)
    · exact Fin.ext (by show 1024 * (t.val % 4) + q.val % 1024 = q.val; omega)
  · rw [stepA_out (grid0.coords t) (1024 * (t.val % 4)) (off_facts t).2 _ _ old q (by omega), hold q,
      partSrc_step_out _ _ _ _ hk q hq]

/-- One step on the second row. -/
theorem stepB_part (c : Dev nD) (t : Fin cfg0.N) (old : S1x1x4096.Idx → EReal)
    (hold : ∀ s : Fin 4096, old (ix3 0 0 s) = prevTgt (srcs m c) (tgts m c) (batchOf t) (t.val % 16) s) (s : Fin 4096) :
    stepB (F := Ideal) (grid0.coords t) (iblk m c 0 t) (iblk m c 1 t) old (ix3 0 0 s)
      = partTgt (srcs m c) (tgts m c) (batchOf t) (t.val % 16) s := by
  have hk : t.val % 16 < 16 := Nat.mod_lt _ (by norm_num)
  have hs4 : s.val < 4096 := s.isLt
  by_cases hs : s.val / 1024 = t.val % 16 / 4
  · have hs' : s.val = 1024 * (t.val / 4 % 4) + (⟨s.val % 1024, Nat.mod_lt _ (by norm_num)⟩ : Fin 1024).val := by
      show s.val = 1024 * (t.val / 4 % 4) + s.val % 1024
      omega
    rw [stepB_in (grid0.coords t) (1024 * (t.val / 4 % 4)) (off_facts t).1 _ _ old s ⟨s.val % 1024, Nat.mod_lt _ (by norm_num)⟩ hs',
      hold s, partTgt_step_of_mem _ _ _ _ hk s hs]
    congr 1
    refine Finset.inf_congr rfl fun q _ => ?_
    rw [tile_eq m c t _ q]
    congr 1
    · exact Fin.ext (by show 1024 * (t.val / 4 % 4) + s.val % 1024 = s.val; omega)
    · exact Fin.ext (by show 1024 * (t.val % 4) + q.val = 1024 * (t.val % 16 % 4) + q.val; omega)
  · rw [stepB_out (grid0.coords t) (1024 * (t.val / 4 % 4)) (off_facts t).1 _ _ old s (by omega), hold s,
      partTgt_step_out _ _ _ _ hk s hs]

/-- After every point each row is the running minimum after the point's step of the point's batch. -/
theorem rows_inv (c : Dev nD) : ∀ (n : ℕ) (hn : n < cfg0.N),
    (∀ q : Fin 4096, (rowsAt m c n hn).1 (ix3 0 0 q) = partSrc (srcs m c) (tgts m c) (batchOf ⟨n, hn⟩) (n % 16) q)
    ∧ (∀ s : Fin 4096, (rowsAt m c n hn).2 (ix3 0 0 s) = partTgt (srcs m c) (tgts m c) (batchOf ⟨n, hn⟩) (n % 16) s) := by
  intro n
  induction n using Nat.strong_induction_on with
  | _ n ih =>
    intro hn
    by_cases h0 : n % 16 = 0
    · rw [rowsAt_reset m c ⟨n, hn⟩ h0]
      refine ⟨fun q => stepA_part m c ⟨n, hn⟩ _ (fun q' => ?_) q, fun s => stepB_part m c ⟨n, hn⟩ _ (fun s' => ?_) s⟩
      · rw [Cert.Chamfer.Tile.pay3_apply]; unfold prevSrc; rw [if_pos h0]
      · rw [Cert.Chamfer.Tile.pay4_apply]; unfold prevTgt; rw [if_pos h0]
    · rw [rowsAt_keep m c ⟨n, hn⟩ h0]
      have hb : batchOf ⟨n - 1, Nat.lt_of_le_of_lt (Nat.sub_le _ _) hn⟩ = batchOf ⟨n, hn⟩ :=
        Fin.ext (by show (n - 1) / 16 = n / 16; omega)
      have hk : (n - 1) % 16 = n % 16 - 1 := by omega
      obtain ⟨ihA, ihB⟩ := ih (n - 1) (by omega) (Nat.lt_of_le_of_lt (Nat.sub_le _ _) hn)
      refine ⟨fun q => stepA_part m c ⟨n, hn⟩ _ (fun q' => ?_) q, fun s => stepB_part m c ⟨n, hn⟩ _ (fun s' => ?_) s⟩
      · rw [ihA q', hb, hk]; unfold prevSrc; rw [if_neg h0]
      · rw [ihB s', hb, hk]; unfold prevTgt; rw [if_neg h0]

/-- After a batch's last point the rows are the full minima of the batch. -/
theorem rows_full (c : Dev nD) (t : Fin cfg0.N) (ht : t.val % 16 = 15) :
    (∀ q : Fin 4096, (rowsAt m c t.val t.isLt).1 (ix3 0 0 q) = nearestSrc (srcs m c) (tgts m c) (batchOf t) q)
    ∧ (∀ s : Fin 4096, (rowsAt m c t.val t.isLt).2 (ix3 0 0 s) = nearestTgt (srcs m c) (tgts m c) (batchOf t) s) := by
  obtain ⟨hA, hB⟩ := rows_inv m c t.val t.isLt
  refine ⟨fun q => ?_, fun s => ?_⟩
  · rw [hA q, ht]; exact partSrc_full _ _ _ q
  · rw [hB s, ht]; exact partTgt_full _ _ _ s

end Cert.KernelIdeal.Body

end
-- ==== Proof.KernTail.lean ====
/-
  The two means, added. Each of the two arrays `[8, 1, 4096]` is summed over all of its entries from zero, the
  sum divided by the f32 word of 32768, and the two quotients added. An index of such an array is a batch and a
  point (the middle axis has the one coordinate 0), so the total sum is the double sum over batch and point; when
  the first array holds, per batch and target point, the least squared distance to a source point, and the second,
  per batch and source point, the least squared distance to a target point, the result is the Chamfer distance.
-/
import proofs.«118990_j25039659336370_2_alg».proof.Proof.Gen.KernelIdeal
import proofs.«118990_j25039659336370_2_alg».proof.Proof.Spec
import Idealize.ShloMosaic.PureOps.Ideal.Laws
import Idealize.ShloMosaic.Lib.ValueIdx

noncomputable section

namespace Cert.KernelIdeal.Tail

open Idealize.ShloMosaic Idealize.ShloMosaic.ValueIdx Cert.KernelIdeal Cert.KernelIdeal.Gen Cert.Chamfer

/-- An index of an `[8, 1, 4096]` array is a batch and a point. -/
def idxEquivUnitMid : (⟨3, ![8, 1, 4096]⟩ : Shape).Idx ≃ Fin 8 × Fin 4096 where
  toFun i := (i 0, i 2)
  invFun p := ix3 p.1 (0 : Fin 1) p.2
  left_inv i := by
    funext a
    match a with
    | ⟨0, _⟩ => rfl
    | ⟨1, _⟩ => exact Fin.ext (by have h : (i 1).val < 1 := (i 1).isLt; show 0 = (i 1).val; omega)
    | ⟨2, _⟩ => rfl
  right_inv _ := rfl

/-- A sum over all indices of an `[8, 1, 4096]` array is the double sum over batch and point. -/
theorem sum_idx_unitMid {M : Type} [AddCommMonoid M] (f : (⟨3, ![8, 1, 4096]⟩ : Shape).Idx → M) :
    ∑ i, f i = ∑ b : Fin 8, ∑ t : Fin 4096, f (ix3 b (0 : Fin 1) t) := by
  rw [← Equiv.sum_comp idxEquivUnitMid.symm f, Fintype.sum_prod_type]
  rfl

/-- The sum of all entries from zero, on the extended reals: the double sum over batch and point. -/
theorem reduceAdd_all (A : FVec Ideal S8x1x4096 .f32) (i : S_.Idx) :
    Host.reduceAdd A (constant (F := Ideal) S_ .f32 0x00000000#32) reducesTo_S8x1x4096_S_d0_1_2 h_S_ i
      = ∑ b : Fin 8, ∑ t : Fin 4096, A (ix3 b (0 : Fin 1) t) := by
  simp only [Host.reduceAdd, Ideal.hostReduceAdd_def]
  refine (Ideal.hostReduceAdd_total reducesTo_S8x1x4096_S_d0_1_2 (fun b => b.elim0) A _ i).trans ?_
  rw [sum_idx_unitMid, constant_apply, Ideal.ofBits_zero_f32, zero_add]

/-- Two arrays holding the two rows of least squared distances end, through the two means and their sum, at the
    Chamfer distance. -/
theorem tail_eq (A B : FVec Ideal S8x1x4096 .f32) (X Y : Cloud)
    (hA : ∀ (b : Fin 8) (t : Fin 4096), A (ix3 b 0 t) = nearestSrc X Y b t)
    (hB : ∀ (b : Fin 8) (s : Fin 4096), B (ix3 b 0 s) = nearestTgt X Y b s) :
    addf (Host.divf (Host.reduceAdd A (constant (F := Ideal) S_ .f32 0x00000000#32) reducesTo_S8x1x4096_S_d0_1_2 h_S_) (constant (F := Ideal) S_ .f32 0x47000000#32))
         (Host.divf (Host.reduceAdd B (constant (F := Ideal) S_ .f32 0x00000000#32) reducesTo_S8x1x4096_S_d0_1_2 h_S_) (constant (F := Ideal) S_ .f32 0x47000000#32))
      = fun _ => chamfer X Y := by
  funext i
  rw [addf_apply]
  unfold Host.divf
  rw [reduceAdd_all A i, reduceAdd_all B i, constant_apply, Ideal.hostDivf_def, Ideal.hostDivf_def]
  unfold chamfer
  rw [Finset.sum_congr rfl fun b _ => Finset.sum_congr rfl fun t _ => hA b t,
    Finset.sum_congr rfl fun b _ => Finset.sum_congr rfl fun s _ => hB b s]

end Cert.KernelIdeal.Tail

end
-- ==== Proof.KernFinal.lean ====
/-
  The result of the idealized kernel program.

  Each output array `[8, 1, 4096]` is written back one batch row at a time, after the batch's last grid point, when
  its staging row holds the batch's full minima: the rows tile the array, so the first array ends holding, at
  (b, 0, t), the least squared distance from target point t of batch b to a source point, and the second, at
  (b, 0, s), the least squared distance from source point s to a target point. The host operations after the region
  take each array's mean and add the two: the Chamfer distance of the specification.
-/
import proofs.«118990_j25039659336370_2_alg».proof.Proof.RowsValue
import proofs.«118990_j25039659336370_2_alg».proof.Proof.KernTail
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.Chamfer

variable (m : (ℓ : Loc nD τ sig) → Buf (Elt Ideal) ℓ) (ρ : Dev nD → PrngReg)

/-- The first result array of the specification: at (b, 0, t) the least squared distance to a source point. -/
def minArrA (c : Dev nD) : Buf (Elt Ideal) ((c : Thread nD τ).loc main_v1_0) :=
  fun i : S8x1x4096.Idx => nearestSrc (srcs m c) (tgts m c) ⟨(i 0).val, (i 0).isLt⟩ ⟨(i 2).val, (i 2).isLt⟩

/-- The second: at (b, 0, s) the least squared distance to a target point. -/
def minArrB (c : Dev nD) : Buf (Elt Ideal) ((c : Thread nD τ).loc main_v1_1) :=
  fun i : S8x1x4096.Idx => nearestTgt (srcs m c) (tgts m c) ⟨(i 0).val, (i 0).isLt⟩ ⟨(i 2).val, (i 2).isLt⟩

/-- What a batch's last point writes back to the first array is the batch's row of `minArrA`. -/
theorem flushed2_eq (c : Dev nD) (t : Fin cfg0.N) (hf : (cfg0.win 2).flush t = true) :
    (dats m 0 c).flushed 2 t = ((cfg0.win 2).blk t).view.read (Elt Ideal) (minArrA m c) := by
  have h15 : t.val % 16 = 15 := (flush0_2 t).mp hf
  obtain ⟨e0, e1, e2⟩ := (out_idx_facts t).1
  show (cfg0.win 2).cut (grid0.coords t) ((dats m 0 c).after 2 t) = _
  rw [after2]
  funext j
  have hj0 : (j 0).val < 1 := (j 0).isLt
  have hj1 : (j 1).val < 1 := (j 1).isLt
  have hj2 : (j 2).val < 4096 := (j 2).isLt
  show (rowsAt m c t.val t.isLt).1 ((cfg0.win 2).xinj (grid0.coords t) j) = minArrA m c (((cfg0.win 2).blk t).view.emb j)
  have hx : (cfg0.win 2).xinj (grid0.coords t) j = (ix3 0 0 ⟨(j 2).val, hj2⟩ : S1x1x4096.Idx) :=
    funext fun a => Fin.ext (by
      match a with
      | ⟨0, _⟩ => show (j 0).val = 0; omega
      | ⟨1, _⟩ => show (j 1).val = 0; omega
      | ⟨2, _⟩ => rfl)
  rw [hx, (rows_full m c t h15).1]
  unfold minArrA
  congr 1
  · apply Fin.ext
    show t.val / 16 = win0_2.index t 0 * 1 + 1 * (j 0).val
    omega
  · apply Fin.ext
    show (j 2).val = win0_2.index t 2 * 4096 + 1 * (j 2).val
    omega

theorem flushed3_eq (c : Dev nD) (t : Fin cfg0.N) (hf : (cfg0.win 3).flush t = true) :
    (dats m 0 c).flushed 3 t = ((cfg0.win 3).blk t).view.read (Elt Ideal) (minArrB m c) := by
  have h15 : t.val % 16 = 15 := (flush0_3 t).mp hf
  obtain ⟨e0, e1, e2⟩ := (out_idx_facts t).2
  show (cfg0.win 3).cut (grid0.coords t) ((dats m 0 c).after 3 t) = _
  rw [after3]
  funext j
  have hj0 : (j 0).val < 1 := (j 0).isLt
  have hj1 : (j 1).val < 1 := (j 1).isLt
  have hj2 : (j 2).val < 4096 := (j 2).isLt
  show (rowsAt m c t.val t.isLt).2 ((cfg0.win 3).xinj (grid0.coords t) j) = minArrB m c (((cfg0.win 3).blk t).view.emb j)
  have hx : (cfg0.win 3).xinj (grid0.coords t) j = (ix3 0 0 ⟨(j 2).val, hj2⟩ : S1x1x4096.Idx) :=
    funext fun a => Fin.ext (by
      match a with
      | ⟨0, _⟩ => show (j 0).val = 0; omega
      | ⟨1, _⟩ => show (j 1).val = 0; omega
      | ⟨2, _⟩ => rfl)
  rw [hx, (rows_full m c t h15).2]
  unfold minArrB
  congr 1
  · apply Fin.ext
    show t.val / 16 = win0_3.index t 0 * 1 + 1 * (j 0).val
    omega
  · apply Fin.ext
    show (j 2).val = win0_3.index t 2 * 4096 + 1 * (j 2).val
    omega

/-- An index of an output array lies in point `t`'s block iff each coordinate lies in the block's range. -/
theorem mem_blk2 (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v1_0).slice (win0_2.rect t)).set ↔ _
  rw [View.set_slice_whole, Rect.mem_set_unit]
  exact Iff.rfl
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- The last point of batch `b`. -/
def lastOf (b : ℕ) (hb : b < 8) : Fin cfg0.N := ⟨16 * b + 15, by rw [show cfg0.N = 128 from N_0]; omega⟩

/-- Every index of the first array is in the block some batch's last point writes back. -/
theorem cover2 (i : S8x1x4096.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  have hv : (lastOf (i 0).val hi0).val = 16 * (i 0).val + 15 := rfl
  obtain ⟨e0, e1, e2⟩ := (out_idx_facts (lastOf (i 0).val hi0)).1
  refine ⟨lastOf (i 0).val hi0, (flush0_2 _).mpr (by rw [hv]; omega), ?_⟩
  rw [mem_blk2]
  intro a
  match a with
  | ⟨0, _⟩ => show win0_2.index (lastOf (i 0).val hi0) 0 * 1 ≤ (i 0).val ∧ (i 0).val < win0_2.index (lastOf (i 0).val hi0) 0 * 1 + 1; rw [e0, hv]; omega
  | ⟨1, _⟩ => show win0_2.index (lastOf (i 0).val hi0) 1 * 1 ≤ (i 1).val ∧ (i 1).val < win0_2.index (lastOf (i 0).val hi0) 1 * 1 + 1; rw [e1]; omega
  | ⟨2, _⟩ => show win0_2.index (lastOf (i 0).val hi0) 2 * 4096 ≤ (i 2).val ∧ (i 2).val < win0_2.index (lastOf (i 0).val hi0) 2 * 4096 + 4096; rw [e2]; omega

theorem cover3 (i : S8x1x4096.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  have hv : (lastOf (i 0).val hi0).val = 16 * (i 0).val + 15 := rfl
  obtain ⟨e0, e1, e2⟩ := (out_idx_facts (lastOf (i 0).val hi0)).2
  refine ⟨lastOf (i 0).val hi0, (flush0_3 _).mpr (by rw [hv]; omega), ?_⟩
  rw [mem_blk3]
  intro a
  match a with
  | ⟨0, _⟩ => show win0_3.index (lastOf (i 0).val hi0) 0 * 1 ≤ (i 0).val ∧ (i 0).val < win0_3.index (lastOf (i 0).val hi0) 0 * 1 + 1; rw [e0, hv]; omega
  | ⟨1, _⟩ => show win0_3.index (lastOf (i 0).val hi0) 1 * 1 ≤ (i 1).val ∧ (i 1).val < win0_3.index (lastOf (i 0).val hi0) 1 * 1 + 1; rw [e1]; omega
  | ⟨2, _⟩ => show win0_3.index (lastOf (i 0).val hi0) 2 * 4096 ≤ (i 2).val ∧ (i 2).val < win0_3.index (lastOf (i 0).val hi0) 2 * 4096 + 4096; rw [e2]; omega

/-- So the output arrays end holding the specification's arrays of minima. -/
theorem final2 (c : Dev nD) : (dats m 0 c).arrAt 2 cfg0.N = minArrA m c :=
  (dats m 0 c).arrAt_eq_of_cover 2 (minArrA m c) (flushed2_eq m c) cover2
theorem final3 (c : Dev nD) : (dats m 0 c).arrAt 3 cfg0.N = minArrB m c :=
  (dats m 0 c).arrAt_eq_of_cover 3 (minArrB m c) (flushed3_eq m c) cover3

/-- The host operations after the region, applied to the arrays the region leaves, give the Chamfer distance. -/
theorem tail_value (c : Dev nD) :
    Pipeline.afterTail₀ cfgs (dats m) 0 (V0 m) [hostOps1] c main_v6 = fun _ => chamfer (srcs m c) (tgts m c) := by
  unfold Pipeline.afterTail₀
  show StableHlo.after hostOps1 _ (Proc.devRef .tc main_v6) = _
  after_results
  rw [show Pipeline.withArrays spec0 c (V0 m c) (fun w => (dats m 0 c).arrAt w cfg0.N) (Proc.devRef .tc main_v1_0) = minArrA m c from
      (Pipeline.withArrays_arr spec0 launch0.win.arr_inj c _ _ 2).trans (final2 m c),
    show Pipeline.withArrays spec0 c (V0 m c) (fun w => (dats m 0 c).arrAt w cfg0.N) (Proc.devRef .tc main_v1_1) = minArrB m c from
      (Pipeline.withArrays_arr spec0 launch0.win.arr_inj c _ _ 3).trans (final3 m c)]
  exact Cert.KernelIdeal.Tail.tail_eq (minArrA m c) (minArrB m c) (srcs m c) (tgts m c) (fun b t => rfl) (fun b s => rfl)

/-- The run of the idealized kernel program, read: its result is the Chamfer distance of its arguments, which end as
    they were launched. -/
theorem run_value : θ_run defs (onTc (τ := τ) (main (F := Ideal))) ⟨m, fun _ => 0, ρ⟩ fun r => ∀ c : Dev nD,
      r.2.mem ((c.tc : Thread nD τ).loc main_v6) = (fun _ => chamfer (srcs m c) (tgts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_value m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Body

end
-- ==== Proof.RefConsts.lean ====
/-
  The two float constants of the reference that the argument evaluates, as the extended reals their f32 words
  denote: `+∞` (the initial value of both minimum reductions, and the bound of the finiteness test) and `2`
  (the factor of the inner product). The zero word is evaluated by the library; the word of 32768 is never
  evaluated, both sides dividing by the same word.
-/
import Idealize.ShloMosaic.PureOps.Ideal

noncomputable section

namespace Cert.Chamfer.Ref

open Idealize.ShloMosaic

/-- The f32 word of `+∞` denotes the top of the extended reals. -/
theorem ofBits_top : Ideal.ofBits .f32 0x7F800000#32 = (⊤ : EReal) := by
  simp [Ideal.ofBits, Ideal.ieee]

/-- The f32 word of `2.0` denotes the real `2`. -/
theorem ofBits_two : Ideal.ofBits .f32 0x40000000#32 = ((2 : ℝ) : EReal) := by
  simp [Ideal.ofBits, Ideal.ieee, -EReal.coe_mul]; norm_num

end Cert.Chamfer.Ref

end
-- ==== Proof.RefFinite.lean ====
/-
  Finiteness of the inputs. The precondition says of each input array that every entry `x` satisfies
  `|x| < +∞`, the conjunction taken over all entries. On the extended reals `|x| = max x (-x)`, which is
  `+∞` exactly at the two infinities; so each entry is (the image of) a real number.
-/
import proofs.«118990_j25039659336370_2_alg».proof.Proof.Gen.Pre_finite_inputs
import Idealize.ShloMosaic.Lib.ReduceAll
import Idealize.ShloMosaic.Lib.ValueIdx
import Idealize.ShloMosaic.PureOps.Ideal.Laws
import proofs.«118990_j25039659336370_2_alg».proof.Proof.RefConsts

noncomputable section

namespace Cert.Chamfer.Ref

open Idealize.ShloMosaic Idealize.ShloMosaic.ValueIdx

/-- The scalar shape has one index. -/
instance : Subsingleton Cert.Pre_finite_inputs.S_.Idx := ⟨fun a b => funext fun d => d.elim0⟩

/-- An extended real whose absolute value `max x (-x)` is strictly below `+∞` is a real. -/
theorem real_of_abs_lt_top (x : EReal)
    (h : Ideal.cmp .olt (max x (-x)) (Ideal.ofBits .f32 0x7F800000#32) = 1#1) :
    ∃ r : ℝ, x = (r : EReal) := by
  rw [ofBits_top] at h
  induction x using EReal.rec with
  | bot => simp [Ideal.cmp] at h
  | coe r => exact ⟨r, rfl⟩
  | top => simp [Ideal.cmp] at h

/-- Under the precondition every entry of both inputs is a real. -/
theorem finite_of_pre (x0 x1 : FVec Ideal Cert.Pre_finite_inputs.S8x3x4096 .f32)
    (hpre : Cert.Pre_finite_inputs.fn (F := Ideal) x0 x1 = fun _ => 1#1) :
    (∀ i, ∃ r : ℝ, x0 i = (r : EReal)) ∧ (∀ i, ∃ r : ℝ, x1 i = (r : EReal)) := by
  have h := congrFun hpre ix0
  dsimp only [Cert.Pre_finite_inputs.fn] at h
  obtain ⟨h0, h1⟩ := IntOp.andi_eq_one.1 h
  exact ⟨fun i => real_of_abs_lt_top (x0 i) (Host.reduce_andi_all _ _ _ _ _ h0 i),
    fun i => real_of_abs_lt_top (x1 i) (Host.reduce_andi_all _ _ _ _ _ h1 i)⟩

end Cert.Chamfer.Ref

end
-- ==== Proof.RefEntry.lean ====
/-
  One entry of the reference's distance table. The reference forms, for batch `b`, source point `s` and target
  point `t`, the number `|x_s|² + |y_t|² − 2·⟨x_s, y_t⟩` from three sums over the three coordinates. When every
  coordinate is a real number this is the sum of the three squared coordinate differences:
  `Σ a² + Σ c² − 2·Σ a·c = Σ (a − c)²`, an identity of the real field. (On the extended reals it needs the
  finiteness: `∞ − ∞` is not `0`.)
-/
import proofs.«118990_j25039659336370_2_alg».proof.Proof.Gen.ReferenceIdeal.Read
import proofs.«118990_j25039659336370_2_alg».proof.Proof.Spec
import proofs.«118990_j25039659336370_2_alg».proof.Proof.RefConsts

noncomputable section

namespace Cert.Chamfer.Ref

open Idealize.ShloMosaic Idealize.ShloMosaic.ValueIdx Cert.ReferenceIdeal Cert.ReferenceIdeal.Read

/-- The real identity behind the entry: squared norms minus twice the inner product is the squared distance,
    coordinate by coordinate (three coordinates, in the order both sides add them). -/
theorem sq_expand (a0 a1 a2 c0 c1 c2 : ℝ) :
    (a0 * a0 + a1 * a1 + a2 * a2) + (c0 * c0 + c1 * c1 + c2 * c2) - 2 * (a0 * c0 + a1 * c1 + a2 * c2)
      = (a0 - c0) * (a0 - c0) + (a1 - c1) * (a1 - c1) + (a2 - c2) * (a2 - c2) := by
  ring

/-- Source side, squared norm: the index read by the chain transpose, square, sum over the coordinate, two
    broadcasts, at table entry `(b, s, t)` and coordinate `k`, is `(b, k, s)`. -/
theorem idx_src_norm (b : Fin 8) (s t : Fin 4096) (k : Fin 3) :
    idx_main_v0 (idx_main_v3 (idx_main_v7 (idx_main_v9 (ix3 b s t))) k) = ix3 b k s :=
  funext fun a => Fin.ext (by match a with | ⟨0, _⟩ => rfl | ⟨1, _⟩ => rfl | ⟨2, _⟩ => rfl)

/-- Target side, squared norm: the index read is `(b, k, t)`. -/
theorem idx_tgt_norm (b : Fin 8) (s t : Fin 4096) (k : Fin 3) :
    idx_main_v1 (idx_main_v5 (idx_main_v8 (idx_main_v10 (ix3 b s t))) k) = ix3 b k t :=
  funext fun a => Fin.ext (by match a with | ⟨0, _⟩ => rfl | ⟨1, _⟩ => rfl | ⟨2, _⟩ => rfl)

/-- Inner product, left operand: the index read is `(b, k, s)`. -/
theorem idx_src_dot (b : Fin 8) (s t : Fin 4096) (k : Fin 3) :
    idx_main_v0 (lidx_main_v6 (ix3 b s t) k) = ix3 b k s :=
  funext fun a => Fin.ext (by match a with | ⟨0, _⟩ => rfl | ⟨1, _⟩ => rfl | ⟨2, _⟩ => rfl)

/-- Inner product, right operand: the index read is `(b, k, t)`. -/
theorem idx_tgt_dot (b : Fin 8) (s t : Fin 4096) (k : Fin 3) :
    idx_main_v1 (ridx_main_v6 (ix3 b s t) k) = ix3 b k t :=
  funext fun a => Fin.ext (by match a with | ⟨0, _⟩ => rfl | ⟨1, _⟩ => rfl | ⟨2, _⟩ => rfl)

/-- The reference's table entry, read down to the inputs. -/
theorem entry_read (x0 x1 : (⟨S8x3x4096, .f32⟩ : BufTy).Contents (Elt Ideal)) (b : Fin 8) (s t : Fin 4096) :
    val_main_v14 (F := Ideal) x0 x1 (ix3 b s t)
      = (0 + (x0 (ix3 b 0 s) * x0 (ix3 b 0 s) + x0 (ix3 b 1 s) * x0 (ix3 b 1 s) + x0 (ix3 b 2 s) * x0 (ix3 b 2 s)))
          + (0 + (x1 (ix3 b 0 t) * x1 (ix3 b 0 t) + x1 (ix3 b 1 t) * x1 (ix3 b 1 t) + x1 (ix3 b 2 t) * x1 (ix3 b 2 t)))
        - Ideal.ofBits .f32 0x40000000#32
          * (x0 (ix3 b 0 s) * x1 (ix3 b 0 t) + x0 (ix3 b 1 s) * x1 (ix3 b 1 t) + x0 (ix3 b 2 s) * x1 (ix3 b 2 t)) := by
  rw [val_main_v14_apply, val_main_v11_apply, val_main_v13_apply, val_main_v9_apply, val_main_v10_apply,
    val_main_v7_apply, val_main_v8_apply, val_main_v3_apply, val_main_v5_apply, val_main_v12_apply,
    val_main_cst_1_apply, val_main_v6_apply, val_main_cst_apply, val_main_cst_0_apply]
  simp only [Fin.sum_univ_three, val_main_v2_apply, val_main_v4_apply, val_main_v0_apply, val_main_v1_apply,
    idx_src_norm, idx_tgt_norm, idx_src_dot, idx_tgt_dot, Ideal.ofBits_def, Ideal.ofBits_zero_f32,
    Ideal.addf_def, Ideal.subf_def, Ideal.mulf_def]

/-- For inputs whose entries are all reals, the reference's table entry is the squared distance. -/
theorem entry_eq_sqDist (x0 x1 : (⟨S8x3x4096, .f32⟩ : BufTy).Contents (Elt Ideal))
    (h0 : ∀ i, ∃ r : ℝ, x0 i = (r : EReal)) (h1 : ∀ i, ∃ r : ℝ, x1 i = (r : EReal))
    (b : Fin 8) (s t : Fin 4096) :
    val_main_v14 (F := Ideal) x0 x1 (ix3 b s t) = sqDist x0 x1 b s t := by
  rw [entry_read]
  unfold sqDist coordDiff
  obtain ⟨a0, ha0⟩ := h0 (ix3 b 0 s)
  obtain ⟨a1, ha1⟩ := h0 (ix3 b 1 s)
  obtain ⟨a2, ha2⟩ := h0 (ix3 b 2 s)
  obtain ⟨c0, hc0⟩ := h1 (ix3 b 0 t)
  obtain ⟨c1, hc1⟩ := h1 (ix3 b 1 t)
  obtain ⟨c2, hc2⟩ := h1 (ix3 b 2 t)
  rw [ha0, ha1, ha2, hc0, hc1, hc2, ofBits_two]
  simp only [zero_add, ← EReal.coe_mul, ← EReal.coe_add, ← EReal.coe_sub]
  exact congrArg _ (sq_expand a0 a1 a2 c0 c1 c2)

end Cert.Chamfer.Ref

end
-- ==== Proof.RefMin.lean ====
/-
  The two minimum stages of the reference. A reduction by `min` along one axis of the `[8, 4096, 4096]` table,
  started from `+∞`, is at each kept index the infimum of the 4096 entries along that axis: `min` is commutative
  and associative, so the host's fold may be read as a fold over the finite set of coordinates, and on the
  extended reals `+∞` is the top element, so the fold from it is the lattice infimum.
-/
import proofs.«118990_j25039659336370_2_alg».proof.Proof.Gen.ReferenceIdeal.Read
import Idealize.ShloMosaic.PureOps.Reduce
import proofs.«118990_j25039659336370_2_alg».proof.Proof.RefConsts

noncomputable section

namespace Cert.Chamfer.Ref

open Idealize.ShloMosaic Idealize.ShloMosaic.ValueIdx Cert.ReferenceIdeal Cert.ReferenceIdeal.Gen
  Cert.ReferenceIdeal.Read

/-- A fold by `min` from the top element is the infimum. -/
theorem fold_min_top {ι : Type} (S : Finset ι) (f : ι → EReal) : S.fold min ⊤ f = S.inf f := rfl

/-- Axis 1 dropped: the table index over `(b, t)` with `k` put back on axis 1 is `(b, k, t)`. -/
theorem lift_axis1 (h : S8x4096x4096.Reduces [1] S8x4096) (b : Fin 8) (t : Fin 4096)
    (k : Fin (S8x4096x4096.size 1)) : h.lift (ix2 b t) k = ix3 b (⟨k.val, k.isLt⟩ : Fin 4096) t := by
  funext c; apply Fin.ext
  match c with
  | ⟨0, _⟩ => rfl
  | ⟨1, _⟩ => rfl
  | ⟨2, _⟩ => rfl

/-- Axis 2 dropped: the table index over `(b, s)` with `k` put back on axis 2 is `(b, s, k)`. -/
theorem lift_axis2 (h : S8x4096x4096.Reduces [2] S8x4096) (b : Fin 8) (s : Fin 4096)
    (k : Fin (S8x4096x4096.size 2)) : h.lift (ix2 b s) k = ix3 b s (⟨k.val, k.isLt⟩ : Fin 4096) := by
  funext c; apply Fin.ext
  match c with
  | ⟨0, _⟩ => rfl
  | ⟨1, _⟩ => rfl
  | ⟨2, _⟩ => rfl

/-- The minimum along axis 1 from `+∞`, at `(b, t)`: the infimum over `s` of the table at `(b, s, t)`. -/
theorem reduce_min_axis1 (x : FVec Ideal S8x4096x4096 .f32) (b : Fin 8) (t : Fin 4096) :
    Host.reduce FloatOps.minimumf x (constant (F := Ideal) S_ .f32 0x7F800000#32)
        reducesTo_S8x4096x4096_S8x4096_d1 h_S_ (ix2 b t)
      = Finset.univ.inf fun s : Fin 4096 => x (ix3 b s t) := by
  have h : S8x4096x4096.Reduces [1] S8x4096 := by decide
  rw [Host.reduce_eq_fold_single FloatOps.minimumf x _ reducesTo_S8x4096x4096_S8x4096_d1 h h_S_]
  have hf : (x ∘ h.lift (ix2 b t)) = fun k : Fin 4096 => x (ix3 b k t) :=
    funext fun k => congrArg x (lift_axis1 h b t k)
  refine Eq.trans (congrArg (fun f => Finset.fold min (Ideal.ofBits .f32 0x7F800000#32) f
    (Finset.univ : Finset (Fin 4096))) hf) ?_
  rw [ofBits_top]
  exact fold_min_top _ _

/-- The minimum along axis 2 from `+∞`, at `(b, s)`: the infimum over `t` of the table at `(b, s, t)`. -/
theorem reduce_min_axis2 (x : FVec Ideal S8x4096x4096 .f32) (b : Fin 8) (s : Fin 4096) :
    Host.reduce FloatOps.minimumf x (constant (F := Ideal) S_ .f32 0x7F800000#32)
        reducesTo_S8x4096x4096_S8x4096_d2 h_S_ (ix2 b s)
      = Finset.univ.inf fun t : Fin 4096 => x (ix3 b s t) := by
  have h : S8x4096x4096.Reduces [2] S8x4096 := by decide
  rw [Host.reduce_eq_fold_single FloatOps.minimumf x _ reducesTo_S8x4096x4096_S8x4096_d2 h h_S_]
  have hf : (x ∘ h.lift (ix2 b s)) = fun k : Fin 4096 => x (ix3 b s k) :=
    funext fun k => congrArg x (lift_axis2 h b s k)
  refine Eq.trans (congrArg (fun f => Finset.fold min (Ideal.ofBits .f32 0x7F800000#32) f
    (Finset.univ : Finset (Fin 4096))) hf) ?_
  rw [ofBits_top]
  exact fold_min_top _ _

/-- The reference's first minimum stage, at `(b, t)`: the infimum over source points of the table. -/
theorem min_over_src (x0 x1 : (⟨S8x3x4096, .f32⟩ : BufTy).Contents (Elt Ideal)) (b : Fin 8) (t : Fin 4096) :
    val_main_v15 (F := Ideal) x0 x1 (ix2 b t)
      = Finset.univ.inf fun s : Fin 4096 => val_main_v14 (F := Ideal) x0 x1 (ix3 b s t) :=
  reduce_min_axis1 (val_main_v14 (F := Ideal) x0 x1) b t

/-- The reference's second minimum stage, at `(b, s)`: the infimum over target points of the table. -/
theorem min_over_tgt (x0 x1 : (⟨S8x3x4096, .f32⟩ : BufTy).Contents (Elt Ideal)) (b : Fin 8) (s : Fin 4096) :
    val_main_v18 (F := Ideal) x0 x1 (ix2 b s)
      = Finset.univ.inf fun t : Fin 4096 => val_main_v14 (F := Ideal) x0 x1 (ix3 b s t) :=
  reduce_min_axis2 (val_main_v14 (F := Ideal) x0 x1) b s

end Cert.Chamfer.Ref

end
-- ==== Proof.RefSide.lean ====
/-
  The reference computes the Chamfer distance. Under the precondition every input entry is a real, so each
  entry of the reference's distance table is the squared distance of the two points; its two minimum stages are
  the infima along the source and the target axis; each of the two sums over the `8 · 4096` minima, started from
  zero, is the double sum over batch and point; and the two quotients by the word of 32768, added, are the
  specification's scalar.
-/
import proofs.«118990_j25039659336370_2_alg».proof.Proof.Gen.ReferenceIdeal.Read
import proofs.«118990_j25039659336370_2_alg».proof.Proof.Spec
import proofs.«118990_j25039659336370_2_alg».proof.Proof.RefFinite
import proofs.«118990_j25039659336370_2_alg».proof.Proof.RefEntry
import proofs.«118990_j25039659336370_2_alg».proof.Proof.RefMin

noncomputable section

namespace Cert.Chamfer.Ref

open Idealize.ShloMosaic Idealize.ShloMosaic.ValueIdx Cert.ReferenceIdeal Cert.ReferenceIdeal.Read

/-- For real inputs the first minimum stage at `(b, t)` is the least squared distance from target point `t`
    to a source point. -/
theorem min_over_src_eq (x0 x1 : (⟨S8x3x4096, .f32⟩ : BufTy).Contents (Elt Ideal))
    (h0 : ∀ i, ∃ r : ℝ, x0 i = (r : EReal)) (h1 : ∀ i, ∃ r : ℝ, x1 i = (r : EReal))
    (b : Fin 8) (t : Fin 4096) :
    val_main_v15 (F := Ideal) x0 x1 (ix2 b t) = nearestSrc x0 x1 b t := by
  rw [min_over_src]
  unfold nearestSrc
  exact congrArg (Finset.univ.inf ·) (funext fun s => entry_eq_sqDist x0 x1 h0 h1 b s t)

/-- For real inputs the second minimum stage at `(b, s)` is the least squared distance from source point `s`
    to a target point. -/
theorem min_over_tgt_eq (x0 x1 : (⟨S8x3x4096, .f32⟩ : BufTy).Contents (Elt Ideal))
    (h0 : ∀ i, ∃ r : ℝ, x0 i = (r : EReal)) (h1 : ∀ i, ∃ r : ℝ, x1 i = (r : EReal))
    (b : Fin 8) (s : Fin 4096) :
    val_main_v18 (F := Ideal) x0 x1 (ix2 b s) = nearestTgt x0 x1 b s := by
  rw [min_over_tgt]
  unfold nearestTgt
  exact congrArg (Finset.univ.inf ·) (funext fun t => entry_eq_sqDist x0 x1 h0 h1 b s t)

/-- Under the precondition the reference's result is the Chamfer distance of its two inputs. -/
theorem result_eq (x0 x1 : (⟨S8x3x4096, .f32⟩ : BufTy).Contents (Elt Ideal))
    (hpre : Cert.Pre_finite_inputs.fn (F := Ideal) x0 x1 = fun _ => 1#1) :
    val_main_v21 (F := Ideal) x0 x1 = fun _ => chamfer x0 x1 := by
  obtain ⟨h0, h1⟩ := finite_of_pre x0 x1 hpre
  funext i
  rw [val_main_v21_apply, val_main_v17_apply, val_main_v20_apply, val_main_v16_apply, val_main_v19_apply,
    val_main_cst_3_apply, val_main_cst_6_apply, val_main_cst_4_apply, val_main_cst_7_apply,
    sum_idx2, sum_idx2]
  simp only [min_over_src_eq x0 x1 h0 h1, min_over_tgt_eq x0 x1 h0 h1, Ideal.ofBits_def, Ideal.ofBits_zero_f32,
    zero_add, Ideal.addf_def, Ideal.hostDivf_def]
  rfl

end Cert.Chamfer.Ref

end
-- ==== Proof.lean ====
/-
  The Chamfer distance of two batches of point clouds `[8, 3, 4096]`: a tiled kernel against its plain reference, at
  the ideal instance (floats are extended reals, every operation exact).

  Both programs form, per batch, the 4096 × 4096 table of squared distances between source and target points, take
  for every target point the least entry of its column and for every source point the least entry of its row, and
  return the mean of the column minima plus the mean of the row minima (each a sum over 8 · 4096 entries divided by
  32768). They differ in two ways. The reference writes an entry as |s|² + |t|² − 2 s·t with a contraction over the
  three coordinates; the kernel writes it as the sum of the three squared coordinate differences. For finite inputs
  these are one real number, (a − b)² summed being Σa² + Σb² − 2Σab, and the precondition says the inputs are finite.
  And the kernel never forms the table: it sweeps it in 16 tiles of 1024 × 1024 per batch, keeping two running rows
  of minima that it resets to +inf at a batch's first tile and minimizes in place, 1024 entries at a time, at every
  tile; after a batch's last tile the rows are the full minima, because a minimum over a finite set is the minimum
  of the minima over the parts of a partition of it, taken in any order.

  The kernel's frame is proved over its body run as a Hoare triple in its two control cases (BodyRun, BodyFrame;
  the same text at the word-level instance in KBodyRun, KBodyFrame); the rows after every grid point are the
  running minima of the sweep (RowsValue over PartialMin and the tile's arithmetic, TilePay); the arrays after the
  write-backs and the host operations after the region give the specification's value (KernFinal, KernTail); the
  reference's generated run is read stage by stage to the same value (RefSide).
-/
import proofs.«118990_j25039659336370_2_alg».proof.Defs
import proofs.«118990_j25039659336370_2_alg».proof.Proof.Gen.Kernel
import proofs.«118990_j25039659336370_2_alg».proof.Proof.Gen.KernelIdeal
import proofs.«118990_j25039659336370_2_alg».proof.Proof.Gen.ReferenceIdeal
import proofs.«118990_j25039659336370_2_alg».proof.Proof.Gen.Pre_finite_inputs
import proofs.«118990_j25039659336370_2_alg».proof.Proof.Gen.ReferenceIdeal.Run
import proofs.«118990_j25039659336370_2_alg».proof.Proof.KBodyFrame
import proofs.«118990_j25039659336370_2_alg».proof.Proof.KernFinal
import proofs.«118990_j25039659336370_2_alg».proof.Proof.RefSide

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Body.frame m ρ

/-- So does the idealized kernel program. -/
theorem frame_kernel_ideal : Cert.frame_KernelIdeal := fun m ρ _ => Cert.KernelIdeal.Body.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both idealized programs end at the Chamfer distance of the
    arguments: the kernel by its sweep of running minima, the reference by its table of norms and products. -/
theorem algebraic : Cert.algebraic_KernelIdeal_ReferenceIdeal := by
  intro m ρ m' ρ' hpre hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v21_eq _ _).trans (Cert.Chamfer.Ref.result_eq _ _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
